-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S64x16 .f32) (main_arg10 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x16 .f32) (main_arg10 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S1600000x64 : Shape := ⟨2, ![1600000, 64]⟩
abbrev S128 : Shape := ⟨1, ![128]⟩
abbrev S128x1 : Shape := ⟨2, ![128, 1]⟩
abbrev S128x16 : Shape := ⟨2, ![128, 16]⟩
abbrev S1x16 : Shape := ⟨2, ![1, 16]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 92
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S128x64, .f32⟩
  | .hbm, ⟨74, _⟩ => ⟨S100000x1, .i32⟩
  | .hbm, ⟨75, _⟩ => ⟨S128x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S128, .f32⟩
  | .hbm, ⟨80, _⟩ => ⟨S100000x1, .i32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128x1, .f32⟩
  | .hbm, ⟨86, _⟩ => ⟨S128x64, .f32⟩
  | .hbm, ⟨87, _⟩ => ⟨S128x64, .f32⟩
  | .hbm, ⟨88, _⟩ => ⟨S128x16, .f32⟩
  | .hbm, ⟨89, _⟩ => ⟨S1x16, .f32⟩
  | .hbm, ⟨90, _⟩ => ⟨S128x16, .f32⟩
  | .hbm, ⟨91, _⟩ => ⟨S128x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S1x64, .f32⟩
  | .local _ .vmem, ⟨24, _⟩ => ⟨S64x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x1, .f32⟩
  | .local _ .vmem, ⟨32, _⟩ => ⟨S2000x1, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_c : Ref sig .tc := ⟨.hbm, 30, rfl⟩
abbrev main_call0_v16 : Ref sig .tc := ⟨.hbm, 31, rfl⟩
abbrev main_call0_v17 : Ref sig .tc := ⟨.hbm, 32, rfl⟩
abbrev main_call0_c_2 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_cst_3 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_c_4 : Ref sig .tc := ⟨.hbm, 44, rfl⟩
abbrev main_call0_v27 : Ref sig .tc := ⟨.hbm, 45, rfl⟩
abbrev main_call0_v28 : Ref sig .tc := ⟨.hbm, 46, rfl⟩
abbrev main_call0_c_5 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_cst_6 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_c_7 : Ref sig .tc := ⟨.hbm, 58, rfl⟩
abbrev main_call0_v38 : Ref sig .tc := ⟨.hbm, 59, rfl⟩
abbrev main_call0_v39 : Ref sig .tc := ⟨.hbm, 60, rfl⟩
abbrev main_call0_c_8 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_cst_9 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_cst_10 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_cst_11 : Ref sig .tc := ⟨.hbm, 76, rfl⟩
abbrev main_call0_v52 : Ref sig .tc := ⟨.hbm, 77, rfl⟩
abbrev main_call0_cst_12 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_cst_13 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_call0_v63 : Ref sig .tc := ⟨.hbm, 90, rfl⟩
abbrev main_v0 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  bcast_S_S100000x64 : S_.BroadcastsInDim S100000x64 (![] : Fin 0 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x16_S128x16_1_0_0_1_n_n_wf : DotDims.WF S128x64 S64x16 S128x16 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v25) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v26) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v36) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v26) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v37) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v47) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v37) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v14) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v48) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S128 : Shape := ⟨1, ![128]⟩
abbrev S128x1 : Shape := ⟨2, ![128, 1]⟩
abbrev S128x16 : Shape := ⟨2, ![128, 16]⟩
abbrev S1x16 : Shape := ⟨2, ![1, 16]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x1, .f32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S128x64, .f32⟩
  | 37 => ⟨S100000x1, .i32⟩
  | 38 => ⟨S128x64, .f32⟩
  | 39 => ⟨S_, .f32⟩
  | 40 => ⟨S100000, .f32⟩
  | 41 => ⟨S_, .f32⟩
  | 42 => ⟨S128, .f32⟩
  | 43 => ⟨S100000x1, .i32⟩
  | 44 => ⟨S128, .f32⟩
  | 45 => ⟨S_, .f32⟩
  | 46 => ⟨S128, .f32⟩
  | 47 => ⟨S128, .f32⟩
  | 48 => ⟨S128x1, .f32⟩
  | 49 => ⟨S128x64, .f32⟩
  | 50 => ⟨S128x64, .f32⟩
  | 51 => ⟨S128x16, .f32⟩
  | 52 => ⟨S1x16, .f32⟩
  | 53 => ⟨S128x16, .f32⟩
  | 54 => ⟨S128x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_19 : Ref sig .tc := ⟨.hbm, 139, rfl⟩
abbrev main_v103 : Ref sig .tc := ⟨.hbm, 140, rfl⟩
abbrev main_v104 : Ref sig .tc := ⟨.hbm, 141, rfl⟩
abbrev main_c_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x16_S128x16_1_0_0_1_n_n_wf : DotDims.WF S128x64 S64x16 S128x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf

class Facts : Prop extends Facts₀ where

variable [Facts]
-- ==== Proof.KRun.lean ====
import proofs.«172860_j34376918237434_2_alg».proof.Proof.Gen.KernelIdeal.Frame
import Idealize.ShloMosaic.Lib.StableHlo.Run

/-!
The idealized kernel program's run with its result NAMED: every weakly fair execution terminates, nothing faulting,
with the result buffer at the contents the last host stretch leaves from the last region's exit contents, and the
argument arrays as launched.
-/

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its nine segments, the last thread state read against the final state: the result buffer
    holds what the last host stretch leaves, each argument array what it held at launch. -/
theorem run_value : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v0 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.KVal

end
-- ==== Proof.IndexOps.lean ====
import Idealize.ShloMosaic.PureOps.Ideal
import Idealize.ShloMosaic.Lib.ValueIdx

/-!
Index facts for the edge gathers and the edge scatter of a graph convolution over 100000 nodes, 1600000 edges
and 64 features: which operand row a gathered element reads (the start index read signed and clamped into
the node range), and at which node row a scattered update lands (the start index read signed, not clamped).
-/

noncomputable section

open Idealize.ShloMosaic Idealize.ShloMosaic.ValueIdx

namespace Cert.Gcn

abbrev SN : Shape := ⟨1, ![100000]⟩
abbrev SE : Shape := ⟨1, ![1600000]⟩
abbrev SE1 : Shape := ⟨2, ![1600000, 1]⟩
abbrev SNH : Shape := ⟨2, ![100000, 64]⟩
abbrev SEH : Shape := ⟨2, ![1600000, 64]⟩

/-- Row gather `x[idx]` of a [100000, 64] operand at [1600000, 1] start indices. -/
abbrev gRow (wf : GatherDims.WF SNH SE1 SEH [1] [0] [] [0] [] 1 ![1, 64]) : GatherDims SNH SE1 SEH where
  offsetDims := [1]
  collapsedSliceDims := [0]
  operandBatchingDims := []
  startIndicesBatchingDims := []
  startIndexMap := [0]
  indexVectorDim := 1
  sliceSizes := ![1, 64]
  wf := wf

/-- Element gather `x[idx]` of a [100000] operand at [1600000, 1] start indices. -/
abbrev gVec (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

/-- Row scatter of [1600000, 64] updates into a [100000, 64] operand at [1600000, 1] scatter indices. -/
abbrev scRow (wf : ScatterDims.WF SNH SE1 SEH [1] [0] [0] 1) : ScatterDims SNH SE1 SEH where
  updateWindowDims := [1]
  insertedWindowDims := [0]
  scatterDimsToOperandDims := [0]
  indexVectorDim := 1
  wf := wf

/-- The row a row-gathered element reads: the start index of its edge, read signed and clamped into the node range. -/
theorem gRow_row (wf : GatherDims.WF SNH SE1 SEH [1] [0] [] [0] [] 1 ![1, 64]) (idx : IVec SE1 32) (j : SEH.Idx) :
    (((gRow wf).operandIdx j idx) 0).val = min (idx (ix2 (j 0) (0 : Fin 1))).toInt.toNat (100000 - 1) := by
  -- the read row on axis 0 is start + batching coordinate + offset coordinate
  show (gRow wf).start j idx 0 + (gRow wf).batchCoord j 0 + (gRow wf).offCoord j 0 = _
  -- no batching axes, and axis 0 is collapsed, so both coordinates vanish
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map: the start is the signed index clamped to size - slice size
  unfold GatherDims.start
  rw [dif_pos (show (0 : Fin 2) ∈ (gRow wf).startIndexMap from List.mem_singleton.mpr rfl)]
  -- the start index is read at [j 0, 0]
  have hsi : (gRow wf).siIdx j ⟨List.idxOf (0 : Fin 2) (gRow wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The element an element-gathered entry reads: the start index of its edge, read signed and clamped. -/
theorem gVec_elt (wf : GatherDims.WF SN SE1 SE [] [0] [] [0] [] 1 ![1]) (idx : IVec SE1 32) (e : SE.Idx) :
    (((gVec wf).operandIdx e idx) 0).val = min (idx (ix2 (e 0) (0 : Fin 1))).toInt.toNat (100000 - 1) := by
  -- the read element on axis 0 is start + batching coordinate + offset coordinate
  show (gVec wf).start e idx 0 + (gVec wf).batchCoord e 0 + (gVec wf).offCoord e 0 = _
  -- no batching axes, and axis 0 is collapsed, so both coordinates vanish
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map: the start is the signed index clamped to size - slice size
  unfold GatherDims.start
  rw [dif_pos (show (0 : Fin 1) ∈ (gVec wf).startIndexMap from List.mem_singleton.mpr rfl)]
  -- the start index is read at [e 0, 0]
  have hsi : (gVec wf).siIdx e ⟨List.idxOf (0 : Fin 1) (gVec wf).startIndexMap,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-- Where a scattered update lands: at the node row its edge's scatter index names, read signed and not clamped. -/
theorem scRow_row (wf : ScatterDims.WF SNH SE1 SEH [1] [0] [0] 1) (idx : IVec SE1 32) (j : SEH.Idx) (i : SNH.Idx)
    (h : (scRow wf).resultIdx? j idx = some i) : (idx (ix2 (j 0) (0 : Fin 1))).toInt = ((i 0).val : Int) := by
  unfold ScatterDims.resultIdx? at h
  split at h
  · -- the update lands: start + window is inside the operand on every axis
    rename_i hall
    have hi := congrFun (Option.some.inj h) 0
    have h0 := (hall 0).1
    -- axis 0 is an inserted window axis, so its window coordinate is 0
    have hw : (scRow wf).window j 0 = 0 := by
      unfold ScatterDims.window
      rw [dif_neg]
      intro hm
      simp [ScatterDims.sKept, Shape.kept, List.mem_filter] at hm
    -- axis 0 is named by the map: the start is the signed index read at [j 0, 0], not clamped
    have hs : (scRow wf).start j idx 0 = (idx (ix2 (j 0) (0 : Fin 1))).toInt := by
      unfold ScatterDims.start
      rw [dif_pos (show (0 : Fin 2) ∈ (scRow wf).scatterDimsToOperandDims from List.mem_singleton.mpr rfl)]
      have hsi : (scRow wf).siIdx j ⟨List.idxOf (0 : Fin 2) (scRow wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw] at h0
    rw [hs] at h0
    have hv : (i 0).val = ((scRow wf).start j idx 0 + ((scRow wf).window j 0 : Nat)).toNat := by
      rw [← hi]
    rw [hw, hs] at hv
    rw [hv]
    simp only [Nat.cast_zero, Int.add_zero] at h0 ⊢
    -- a non-negative integer is its own natural part
    exact (Int.toNat_of_nonneg h0).symm
  · -- a dropped update has no landing index
    exact absurd h (by simp)

/-- Wrapping a negative index by the node count leaves a non-negative index as it is. -/
theorem wrap_of_nonneg (v : BitVec 32) (h : 0 ≤ v.toInt) :
    Scalar.select (IntOp.cmpi .slt v 0#32) (IntOp.addi v 100000#32) v = v := by
  -- a non-negative word is not signed-below zero
  have hlt : v.slt 0#32 = false := by
    rw [BitVec.slt_eq_decide, BitVec.toInt_zero]
    exact decide_eq_false (by omega)
  -- so the comparison bit is 0 and the select keeps its second operand
  have hc : IntOp.cmpi .slt v 0#32 = 0#1 := by
    show BitVec.ofBool (v.slt 0#32) = 0#1
    rw [hlt]
    rfl
  rw [hc]
  exact select_zero _ _

end Cert.Gcn

end
-- ==== Proof.Spec.lean ====
import Idealize.ShloMosaic.PureOps.Ideal
import Idealize.ShloMosaic.Lib.ValueIdx

/-!
The three node-tiled computations of the network as whole-array functions over the extended reals, index by index:
a matrix product whose rows are scaled by the per-node factor; the combination `(s + h') * dinv + b` of the
gathered-and-summed messages with the node's own scaled features; and the fusion of that combination, a rectifier
and the next layer's scaled matrix product.
-/

noncomputable section

open Idealize.ShloMosaic Idealize.ShloMosaic.ValueIdx

namespace Cert.Gcn

abbrev SN1 : Shape := ⟨2, ![100000, 1]⟩
abbrev S1H : Shape := ⟨2, ![1, 64]⟩
abbrev SNH' : Shape := ⟨2, ![100000, 64]⟩

/-- The row coordinate of a rank-2 index, at its literal extent. -/
abbrev row {n0 n1 : Nat} (i : (⟨2, ![n0, n1]⟩ : Shape).Idx) : Fin n0 := ⟨(i 0).val, idx2_lt0 i⟩
/-- The column coordinate of a rank-2 index, at its literal extent. -/
abbrev col {n0 n1 : Nat} (i : (⟨2, ![n0, n1]⟩ : Shape).Idx) : Fin n1 := ⟨(i 1).val, idx2_lt1 i⟩

/-- `(x @ w) * dinv`: entry `(n, f)` is the sum over `k` of `x[n, k] * w[k, f]`, times the node's factor `dc[n, 0]`. -/
def mmScale {K : Nat} (x : (⟨2, ![100000, K]⟩ : Shape).Idx → EReal) (w : (⟨2, ![K, 64]⟩ : Shape).Idx → EReal)
    (dc : SN1.Idx → EReal) : SNH'.Idx → EReal :=
  fun i => (∑ k : Fin K, x (ix2 (row i) k) * w (ix2 k (col i))) * dc (ix2 (row i) (0 : Fin 1))

/-- `(s + h') * dinv + b`: the summed messages plus the node's own scaled features, scaled by the node's factor, plus the bias. -/
def combine (s hp : SNH'.Idx → EReal) (dc : SN1.Idx → EReal) (b : S1H.Idx → EReal) : SNH'.Idx → EReal :=
  fun i => (s i + hp i) * dc (ix2 (row i) (0 : Fin 1)) + b (ix2 (0 : Fin 1) (col i))

/-- The rectifier. -/
def relu (a : SNH'.Idx → EReal) : SNH'.Idx → EReal := fun i => max (a i) 0

/-- One layer's combination and rectifier fused with the next layer's scaled matrix product. -/
def fused (s hp : SNH'.Idx → EReal) (dc : SN1.Idx → EReal) (b : S1H.Idx → EReal)
    (w : (⟨2, ![64, 64]⟩ : Shape).Idx → EReal) : SNH'.Idx → EReal :=
  mmScale (K := 64) (relu (combine s hp dc b)) w dc

end Cert.Gcn

end
-- ==== Proof.Ops.lean ====
import proofs.«172860_j34376918237434_2_alg».proof.Proof.IndexOps
import proofs.«172860_j34376918237434_2_alg».proof.Proof.Spec
import Idealize.ShloMosaic.PureOps.Ideal

/-!
The network's host-side operations as functions over the extended reals, stated once for both programs: the edge
endpoints, the per-node factor `dinv = rsqrt(in-degree + 1)`, the gather-and-sum of rows along the edges, the
reference's convolution layer (messages scaled per edge by `dinv[src] * dinv[dst]`), and the pooling tail; then the
two programs' results as compositions of these.
-/

noncomputable section

open Idealize.ShloMosaic Idealize.ShloMosaic.ValueIdx

namespace Cert.Gcn

abbrev S0 : Shape := ⟨0, ![]⟩
abbrev SH : Shape := ⟨1, ![64]⟩
abbrev S2E : Shape := ⟨2, ![2, 1600000]⟩
abbrev S1E : Shape := ⟨2, ![1, 1600000]⟩
abbrev SNX : Shape := ⟨2, ![100000, 128]⟩
abbrev SXH : Shape := ⟨2, ![128, 64]⟩
abbrev SHH : Shape := ⟨2, ![64, 64]⟩
abbrev SG : Shape := ⟨1, ![128]⟩
abbrev SG1 : Shape := ⟨2, ![128, 1]⟩
abbrev SGH : Shape := ⟨2, ![128, 64]⟩
abbrev SHC : Shape := ⟨2, ![64, 16]⟩
abbrev SGC : Shape := ⟨2, ![128, 16]⟩
abbrev SC : Shape := ⟨1, ![16]⟩
abbrev S1C : Shape := ⟨2, ![1, 16]⟩

/-- The shape relations and dimension-number conditions the operations below cite (each is decided on the literal shapes). -/
structure ShapeFacts : Prop where
  slice0 : S2E.Slices ![0, 0] S1E
  slice1 : S2E.Slices ![1, 0] S1E
  cast1E_E : S1E.ShapeCasts SE
  castN_N1 : SN.ShapeCasts SN1
  castH_1H : SH.ShapeCasts S1H
  b0_E : S0.BroadcastsInDim SE (![] : Fin 0 → Fin SE.rank)
  b0_N : S0.BroadcastsInDim SN (![] : Fin 0 → Fin SN.rank)
  b0_NH : S0.BroadcastsInDim SNH (![] : Fin 0 → Fin SNH.rank)
  b0_G : S0.BroadcastsInDim SG (![] : Fin 0 → Fin SG.rank)
  b0_GH : S0.BroadcastsInDim SGH (![] : Fin 0 → Fin SGH.rank)
  bE_E1 : SE.BroadcastsInDim SE1 (![0] : Fin 1 → Fin SE1.rank)
  bE1_EH : SE1.BroadcastsInDim SEH (![0, 1] : Fin 2 → Fin SEH.rank)
  bN_N1 : SN.BroadcastsInDim SN1 (![0] : Fin 1 → Fin SN1.rank)
  bN1_NH : SN1.BroadcastsInDim SNH (![0, 1] : Fin 2 → Fin SNH.rank)
  bH_1H : SH.BroadcastsInDim S1H (![1] : Fin 1 → Fin S1H.rank)
  b1H_NH : S1H.BroadcastsInDim SNH (![0, 1] : Fin 2 → Fin SNH.rank)
  bG_G1 : SG.BroadcastsInDim SG1 (![0] : Fin 1 → Fin SG1.rank)
  bG1_GH : SG1.BroadcastsInDim SGH (![0, 1] : Fin 2 → Fin SGH.rank)
  bC_1C : SC.BroadcastsInDim S1C (![1] : Fin 1 → Fin S1C.rank)
  b1C_GC : S1C.BroadcastsInDim SGC (![0, 1] : Fin 2 → Fin SGC.rank)
  wfDeg : ScatterDims.WF SN SE1 SE [] [0] [0] 1
  wfRow : ScatterDims.WF SNH SE1 SEH [1] [0] [0] 1
  wfPool : ScatterDims.WF SGH SN1 SNH [1] [0] [0] 1
  wfCnt : ScatterDims.WF SG SN1 SN [] [0] [0] 1
  wfGRow : GatherDims.WF SNH SE1 SEH [1] [0] [] [0] [] 1 ![1, 64]
  wfGVec : GatherDims.WF SN SE1 SE [] [0] [] [0] [] 1 ![1]
  wfDotX : DotDims.WF SNX SXH SNH [1] [0] [0] [1] [] []
  wfDotH : DotDims.WF SNH SHH SNH [1] [0] [0] [1] [] []
  wfDotC : DotDims.WF SGH SHC SGC [1] [0] [0] [1] [] []

/-- Element scatter of [1600000] updates into [100000] (the in-degree count). -/
abbrev scDeg (wf : ScatterDims.WF SN SE1 SE [] [0] [0] 1) : ScatterDims SN SE1 SE where
  updateWindowDims := []
  insertedWindowDims := [0]
  scatterDimsToOperandDims := [0]
  indexVectorDim := 1
  wf := wf
/-- Row scatter of [100000, 64] updates into [128, 64] (the per-graph sums). -/
abbrev scPool (wf : ScatterDims.WF SGH SN1 SNH [1] [0] [0] 1) : ScatterDims SGH SN1 SNH where
  updateWindowDims := [1]
  insertedWindowDims := [0]
  scatterDimsToOperandDims := [0]
  indexVectorDim := 1
  wf := wf
/-- Element scatter of [100000] updates into [128] (the per-graph node counts). -/
abbrev scCnt (wf : ScatterDims.WF SG SN1 SN [] [0] [0] 1) : ScatterDims SG SN1 SN where
  updateWindowDims := []
  insertedWindowDims := [0]
  scatterDimsToOperandDims := [0]
  indexVectorDim := 1
  wf := wf
/-- The first projection's matrix product: contract the features' axis 1 with the weights' axis 0. -/
abbrev dotX (wf : DotDims.WF SNX SXH SNH [1] [0] [0] [1] [] []) : DotDims SNX SXH SNH where
  lhsContracting := [1]
  rhsContracting := [0]
  lhsNonContracting := [0]
  rhsNonContracting := [1]
  lhsBatch := []
  rhsBatch := []
  wf := wf
/-- A hidden projection's matrix product. -/
abbrev dotH (wf : DotDims.WF SNH SHH SNH [1] [0] [0] [1] [] []) : DotDims SNH SHH SNH where
  lhsContracting := [1]
  rhsContracting := [0]
  lhsNonContracting := [0]
  rhsNonContracting := [1]
  lhsBatch := []
  rhsBatch := []
  wf := wf
/-- The final linear layer's matrix product. -/
abbrev dotC (wf : DotDims.WF SGH SHC SGC [1] [0] [0] [1] [] []) : DotDims SGH SHC SGC where
  lhsContracting := [1]
  rhsContracting := [0]
  lhsNonContracting := [0]
  rhsNonContracting := [1]
  lhsBatch := []
  rhsBatch := []
  wf := wf

/-- Every relation above holds on the literal shapes. -/
theorem shapeFacts : ShapeFacts := by constructor <;> decide

/-- The plain matrix product: entry `(n, f)` is the sum over `k` of `x[n, k] * w[k, f]`. -/
def mm {K : Nat} (x : (⟨2, ![100000, K]⟩ : Shape).Idx → EReal) (w : (⟨2, ![K, 64]⟩ : Shape).Idx → EReal) : SNH.Idx → EReal :=
  fun i => ∑ k : Fin K, x (ix2 (row i) k) * w (ix2 k (col i))
/-- Each row scaled by its node's factor. -/
def scaleRows (h : SNH.Idx → EReal) (dc : SN1.Idx → EReal) : SNH.Idx → EReal := fun i => h i * dc (ix2 (row i) (0 : Fin 1))
/-- The scaled projection is the projection, scaled. -/
theorem mmScale_eq {K : Nat} (x : (⟨2, ![100000, K]⟩ : Shape).Idx → EReal) (w : (⟨2, ![K, 64]⟩ : Shape).Idx → EReal)
    (dc : SN1.Idx → EReal) : mmScale x w dc = scaleRows (mm x w) dc := rfl

variable (φ : ShapeFacts)

/-- The edges' sources: row 0 of the edge list. -/
def srcOf (e : IVec S2E 32) : IVec SE 32 := shapeCast _ (extractStridedSlice S1E ![0, 0] e φ.slice0) φ.cast1E_E
/-- The edges' destinations: row 1 of the edge list. -/
def dstOf (e : IVec S2E 32) : IVec SE 32 := shapeCast _ (extractStridedSlice S1E ![1, 0] e φ.slice1) φ.cast1E_E
/-- Scatter indices as they are: one index per edge. -/
def rawIdx (v : IVec SE 32) : IVec SE1 32 := broadcastInDim SE1 ![0] φ.bE_E1 v
/-- Gather indices: a negative index wrapped by the node count, one index per edge. -/
def wrapIdx (v : IVec SE 32) : IVec SE1 32 :=
  broadcastInDim SE1 ![0] φ.bE_E1
    (select (cmpi .slt v (broadcastInDim SE ![] φ.b0_E (constantI S0 32 0#32)))
      (addi v (broadcastInDim SE ![] φ.b0_E (constantI S0 32 100000#32))) v)
/-- `dinv = rsqrt(in-degree + 1)`, the in-degree a scatter-add of ones along the destinations. -/
def dinvOf (dst : IVec SE 32) : FVec Ideal SN .f32 :=
  Host.rsqrt (addf (Host.scatterAdd (scDeg φ.wfDeg)
      (broadcastInDim SN ![] φ.b0_N (constant (F := Ideal) S0 .f32 0x00000000#32)) (rawIdx φ dst)
      (broadcastInDim SE ![] φ.b0_E (constant (F := Ideal) S0 .f32 0x3F800000#32)))
    (broadcastInDim SN ![] φ.b0_N (constant (F := Ideal) S0 .f32 0x3F800000#32)))
/-- The rows `hp[src]` summed into the rows `dst`. -/
def scat (hp : FVec Ideal SNH .f32) (src dst : IVec SE 32) : FVec Ideal SNH .f32 :=
  Host.scatterAdd (scRow φ.wfRow)
    (broadcastInDim SNH ![] φ.b0_NH (constant (F := Ideal) S0 .f32 0x00000000#32)) (rawIdx φ dst)
    (Host.gather (gRow φ.wfGRow) hp (wrapIdx φ src))
/-- The per-node factor as a column. -/
def dcOf (dinv : FVec Ideal SN .f32) : FVec Ideal SN1 .f32 := shapeCast SN1 dinv φ.castN_N1
/-- A bias as a row. -/
def browOf (b : FVec Ideal SH .f32) : FVec Ideal S1H .f32 := shapeCast S1H b φ.castH_1H

/-- The reference's convolution layer on projected features `h`: messages `h[src]` scaled per edge by
    `dinv[src] * dinv[dst]`, summed into `dst`; plus the self-loop term `h * dinv²`; plus the bias. -/
def refConv (h : FVec Ideal SNH .f32) (dinv : FVec Ideal SN .f32) (src dst : IVec SE 32) (b : FVec Ideal SH .f32) :
    FVec Ideal SNH .f32 :=
  addf (addf (Host.scatterAdd (scRow φ.wfRow)
        (broadcastInDim SNH ![] φ.b0_NH (constant (F := Ideal) S0 .f32 0x00000000#32)) (rawIdx φ dst)
        (mulf (Host.gather (gRow φ.wfGRow) h (wrapIdx φ src))
          (broadcastInDim SEH ![0, 1] φ.bE1_EH (broadcastInDim SE1 ![0] φ.bE_E1
            (mulf (Host.gather (gVec φ.wfGVec) dinv (wrapIdx φ src)) (Host.gather (gVec φ.wfGVec) dinv (wrapIdx φ dst)))))))
      (mulf h (broadcastInDim SNH ![0, 1] φ.bN1_NH (broadcastInDim SN1 ![0] φ.bN_N1 (mulf dinv dinv)))))
    (broadcastInDim SNH ![0, 1] φ.b1H_NH (broadcastInDim S1H ![1] φ.bH_1H b))
/-- The reference's rectifier: a maximum with a broadcast zero. -/
def reluH (a : FVec Ideal SNH .f32) : FVec Ideal SNH .f32 :=
  maximumf a (broadcastInDim SNH ![] φ.b0_NH (constant (F := Ideal) S0 .f32 0x00000000#32))

/-- Mean pooling per graph and the final linear layer. -/
def tailG (h3 : FVec Ideal SNH .f32) (batch : IVec SN 32) (lw : FVec Ideal SHC .f32) (lb : FVec Ideal SC .f32) :
    FVec Ideal SGC .f32 :=
  addf (Host.dotGeneral (dotC φ.wfDotC) none
      (Host.divf (Host.scatterAdd (scPool φ.wfPool)
          (broadcastInDim SGH ![] φ.b0_GH (constant (F := Ideal) S0 .f32 0x00000000#32)) (broadcastInDim SN1 ![0] φ.bN_N1 batch) h3)
        (broadcastInDim SGH ![0, 1] φ.bG1_GH (broadcastInDim SG1 ![0] φ.bG_G1
          (maximumf (Host.scatterAdd (scCnt φ.wfCnt)
              (broadcastInDim SG ![] φ.b0_G (constant (F := Ideal) S0 .f32 0x00000000#32)) (broadcastInDim SN1 ![0] φ.bN_N1 batch)
              (broadcastInDim SN ![] φ.b0_N (constant (F := Ideal) S0 .f32 0x3F800000#32)))
            (broadcastInDim SG ![] φ.b0_G (constant (F := Ideal) S0 .f32 0x3F800000#32)))))) lw)
    (broadcastInDim SGC ![0, 1] φ.b1C_GC (broadcastInDim S1C ![1] φ.bC_1C lb))

/-- The kernel program's result: three scaled projections, each followed by the gather-and-sum along the edges and
    the combination with the node's own features, the first two rectified and fused with the next projection. -/
def kerValue (x : FVec Ideal SNX .f32) (e : IVec S2E 32) (batch : IVec SN 32) (w1 : FVec Ideal SXH .f32) (b1 : FVec Ideal SH .f32)
    (w2 : FVec Ideal SHH .f32) (b2 : FVec Ideal SH .f32) (w3 : FVec Ideal SHH .f32) (b3 : FVec Ideal SH .f32)
    (lw : FVec Ideal SHC .f32) (lb : FVec Ideal SC .f32) : FVec Ideal SGC .f32 :=
  let src := srcOf φ e
  let dst := dstOf φ e
  let dc := dcOf φ (dinvOf φ dst)
  let hp1 := mmScale (K := 128) x w1 dc
  let hp2 := fused (scat φ hp1 src dst) hp1 dc (browOf φ b1) w2
  let hp3 := fused (scat φ hp2 src dst) hp2 dc (browOf φ b2) w3
  tailG φ (combine (scat φ hp3 src dst) hp3 dc (browOf φ b3)) batch lw lb

/-- The reference's result: three convolution layers, the first two rectified, pooled and projected. -/
def refValue (x : FVec Ideal SNX .f32) (e : IVec S2E 32) (batch : IVec SN 32) (w1 : FVec Ideal SXH .f32) (b1 : FVec Ideal SH .f32)
    (w2 : FVec Ideal SHH .f32) (b2 : FVec Ideal SH .f32) (w3 : FVec Ideal SHH .f32) (b3 : FVec Ideal SH .f32)
    (lw : FVec Ideal SHC .f32) (lb : FVec Ideal SC .f32) : FVec Ideal SGC .f32 :=
  let src := srcOf φ e
  let dst := dstOf φ e
  let dinv := dinvOf φ dst
  let a1 := reluH φ (refConv φ (Host.dotGeneral (dotX φ.wfDotX) none x w1) dinv src dst b1)
  let a2 := reluH φ (refConv φ (Host.dotGeneral (dotH φ.wfDotH) none a1 w2) dinv src dst b2)
  tailG φ (refConv φ (Host.dotGeneral (dotH φ.wfDotH) none a2 w3) dinv src dst b3) batch lw lb

end Cert.Gcn

end
-- ==== Proof.KRegion0.lean ====
import proofs.«172860_j34376918237434_2_alg».proof.Proof.Gen.KernelIdeal.Frame
import proofs.«172860_j34376918237434_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
What each of the four node-tiled regions leaves in its output array, as ONE function of the arrays it reads: the 50
blocks of 2000 node rows tile the 100000 rows, block `t` of the output is the body's result on block `t` of the
row-tiled inputs and on the whole of the untiled ones (weights, bias row), so the array after the region is the
whole-array function of Spec, index by index.
-/

noncomputable section

open Idealize.ShloMosaic Idealize.ShloMosaic.TcCoe Idealize.ShloMosaic.ValueIdx Idealize.SL.Sem

namespace Cert.KernelIdeal.KVal

open Cert.KernelIdeal Cert.KernelIdeal.Gen Cert.Gcn

variable (V : (c : Dev nD) → (b : Ref sig .tc) → Buf (Elt Ideal) ((c : Thread nD τ).loc b))

/-- The zero offsets of a whole-block access, as the constant function. -/
theorem r0_hz : (![0, 0] : Fin 2 → Nat) = fun _ => 0 := funext fun a => by fin_cases a <;> rfl

/-- A column `[a, 1]` broadcast to `[a, b]` reads, at `(p, c)`, the column's entry of row `p`. -/
theorem r0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The matrix product's operand indices: at output `(p, q)` and contraction position `k` the left operand is read at
`(p, k)` and the right one at `(k, q)`. -/

theorem r0_lhs0 (i : S2000x64.Idx) (k : dot_S2000x128_S128x64_S2000x64_1_0_0_1_n_n.contr.Idx) :
    (dot_S2000x128_S128x64_S2000x64_1_0_0_1_n_n.lhsIdx i k 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem r0_lhs1 (i : S2000x64.Idx) (k : dot_S2000x128_S128x64_S2000x64_1_0_0_1_n_n.contr.Idx) :
    (dot_S2000x128_S128x64_S2000x64_1_0_0_1_n_n.lhsIdx i k 1).val = (k ⟨0, by decide⟩).val :=
  dot_S2000x128_S128x64_S2000x64_1_0_0_1_n_n.lhsIdx_val_of_single rfl i k
theorem r0_rhs0 (i : S2000x64.Idx) (k : dot_S2000x128_S128x64_S2000x64_1_0_0_1_n_n.contr.Idx) :
    (dot_S2000x128_S128x64_S2000x64_1_0_0_1_n_n.rhsIdx i k 0).val = (k ⟨0, by decide⟩).val :=
  dot_S2000x128_S128x64_S2000x64_1_0_0_1_n_n.rhsIdx_val_of_single rfl i k
theorem r0_rhs1 (i : S2000x64.Idx) (k : dot_S2000x128_S128x64_S2000x64_1_0_0_1_n_n.contr.Idx) :
    (dot_S2000x128_S128x64_S2000x64_1_0_0_1_n_n.rhsIdx i k 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The block's matrix product into a zero accumulator, at `(p, q)`: the sum over the 128 contraction positions. -/
theorem r0_matmul_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact r0_lhs0 _ _
      | ⟨1, _⟩ => exact (r0_lhs1 _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (r0_rhs0 _ _).trans hk
      | ⟨1, _⟩ => exact r0_rhs1 _ _)
  rw [el, er]

/-- The body's result at row `p`, column `q` of the block: the row of the features times the column of the weights,
    scaled by the row's factor. -/
theorem r0_pay_apply (x0 : Vec Ideal S2000x128 .f32) (x1 : Vec Ideal S128x64 .f32) (x2 : Vec Ideal S2000x1 .f32)
    (p : Fin 2000) (q : Fin 64) :
    k0_pay1 x0 x1 x2 (ix2 p q) = (∑ k : Fin 128, x0 (ix2 p k) * x1 (ix2 k q)) * x2 (ix2 p (0 : Fin 1)) := by
  unfold k0_pay1
  simp only [shapeCast_self]
  show matmul dot_S2000x128_S128x64_S2000x64_1_0_0_1_n_n none (truncf .bf16 x0 bitsLt_bf16_f32) (truncf .bf16 x1 bitsLt_bf16_f32)
        (constant (F := Ideal) S2000x64 .f32 0x00000000#32) (ix2 p q)
      * broadcastTo S2000x64 x2 broadcasts_S2000x1_S2000x64 (ix2 p q) = _
  rw [r0_matmul_apply, r0_broadcastTo_a1_ab_apply]
  rfl

/-- The printed index maps over the grid: at point `t` every row-tiled window is at block `(t, 0)`, the weights at `(0, 0)`. -/
theorem r0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the features: its entry `(p, k)` is the array's entry of row `2000 t + p`, column `k`. -/
theorem r0_blk0 (c : Dev nD) (t : Fin cfg0.N) (p : Fin 2000) (k : Fin 128) (r : Fin 100000)
    (h : r.val = t.val * 2000 + p.val) :
    (iblk0 V c 0 t : Vec Ideal S2000x128 .f32) (ix2 p k)
      = (V c (Pipeline.arrRef spec0 0) : (⟨2, ![100000, 128]⟩ : Shape).Idx → EReal) (ix2 r k) := by
  obtain ⟨e0, e1, -⟩ := r0_idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 2000 + 1 * p.val = r.val; rw [e0, h]; omega
  | ⟨1, _⟩ => show win0_0.index t (1 : Fin 2) * 128 + 1 * k.val = k.val; rw [e1]; omega

/-- The weights are staged whole at every point. -/
theorem r0_blk1 (c : Dev nD) (t : Fin cfg0.N) (k : Fin 128) (q q' : Fin 64) (h : q'.val = q.val) :
    (iblk0 V c 1 t : Vec Ideal S128x64 .f32) (ix2 k q)
      = (V c (Pipeline.arrRef spec0 1) : (⟨2, ![128, 64]⟩ : Shape).Idx → EReal) (ix2 k q') := by
  obtain ⟨-, -, e0, e1, -⟩ := r0_idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q'.val; rw [e1, h]; omega

/-- Block `t` of the per-node factors: its entry `(p, 0)` is the factor of node `2000 t + p`. -/
theorem r0_blk2 (c : Dev nD) (t : Fin cfg0.N) (p : Fin 2000) (r : Fin 100000) (h : r.val = t.val * 2000 + p.val) :
    (iblk0 V c 2 t : Vec Ideal S2000x1 .f32) (ix2 p (0 : Fin 1))
      = (V c (Pipeline.arrRef spec0 2) : SN1.Idx → EReal) (ix2 r (0 : Fin 1)) := by
  obtain ⟨-, -, -, -, e0, e1, -⟩ := r0_idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 2000 + 1 * p.val = r.val; rw [e0, h]; omega
  | ⟨1, _⟩ => show win0_2.index t (1 : Fin 2) * 1 + 1 * 0 = 0; rw [e1]

/-- What point `t` writes back is block `t` of the whole-array scaled matrix product of the arrays the region reads. -/
theorem r0_flushed_eq (c : Dev nD) (t : Fin cfg0.N) :
    (dat0 (F := Ideal) V c).flushed 3 t
      = ((cfg0.win 3).blk t).view.read (Elt Ideal)
          (mmScale (K := 128) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero r0_hz]
  simp only [View.ld_unit_zero (S := S2000x128) r0_hz, View.ld_unit_zero (S := S128x64) r0_hz, View.ld_unit_zero (S := S2000x1) r0_hz]
  obtain ⟨-, -, -, -, -, -, e30, e31⟩ := r0_idx_facts t
  funext j
  obtain ⟨p, q, rfl⟩ : ∃ (p : Fin 2000) (q : Fin 64), j = ix2 p q := ⟨j 0, j 1, eq_ix2 j⟩
  rw [View.read_apply]
  show k0_pay1 (iblk0 V c 0 t) (iblk0 V c 1 t) (iblk0 V c 2 t) (ix2 p q)
    = mmScale (K := 128) (V c (Pipeline.arrRef spec0 0)) (V c (Pipeline.arrRef spec0 1)) (V c (Pipeline.arrRef spec0 2))
        (((cfg0.win 3).blk t).view.emb (ix2 p q))
  have hi0 : ((((cfg0.win 3).blk t).view.emb (ix2 p q) : SNH'.Idx) 0).val = t.val * 2000 + p.val := by
    show win0_3.index t (0 : Fin 2) * 2000 + 1 * p.val = _; rw [e30]; omega
  have hi1 : ((((cfg0.win 3).blk t).view.emb (ix2 p q) : SNH'.Idx) 1).val = q.val := by
    show win0_3.index t (1 : Fin 2) * 64 + 1 * q.val = _; rw [e31]; omega
  refine (r0_pay_apply (iblk0 V c 0 t) (iblk0 V c 1 t) (iblk0 V c 2 t) p q).trans ?_
  unfold mmScale
  rw [r0_blk2 V c t p (row (((cfg0.win 3).blk t).view.emb (ix2 p q) : SNH'.Idx)) hi0]
  refine congrArg (· * _) (Finset.sum_congr rfl fun k _ => ?_)
  rw [r0_blk0 V c t p k (row (((cfg0.win 3).blk t).view.emb (ix2 p q) : SNH'.Idx)) hi0,
    r0_blk1 V c t k q (col (((cfg0.win 3).blk t).view.emb (ix2 p q) : SNH'.Idx)) hi1]

/-- An index of the output array lies in point `t`'s block iff, on each axis, its coordinate lies in the block's range. -/
theorem r0_mem_blk (t : Fin cfg0.N) (i : SNH'.Idx) :
    i ∈ ((cfg0.win 3).blk t).view.set
      ↔ ∀ a : Fin 2, win0_3.index t a * S2000x64.size a ≤ (i a).val
          ∧ (i a).val < win0_3.index t a * S2000x64.size a + S2000x64.size a := by
  show i ∈ ((View.whole main_call0_v15).slice (win0_3.rect t)).set ↔ _
  rw [View.set_slice_whole, Rect.mem_set_unit]
  exact Iff.rfl

/-- The 50 blocks of 2000 rows tile the 100000 rows: row `r` lies in the block of point `r / 2000`. -/
theorem r0_cover (i : SNH'.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : grid0.N = 50 := N_0
  have ht : (i 0).val / 2000 < grid0.N := by rw [hN]; omega
  obtain ⟨-, -, -, -, -, -, e30, e31⟩ := r0_idx_facts ⟨(i 0).val / 2000, ht⟩
  refine ⟨⟨(i 0).val / 2000, ht⟩, flush0_3 _, ?_⟩
  rw [r0_mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e31]; omega

/-- Region 0 (matrix product, rows scaled): its output array after the region. -/
theorem final0 (c : Dev nD) :
    (dat0 (F := Ideal) V c).arrAt 3 cfg0.N
      = mmScale (K := 128) (V c (Pipeline.arrRef spec0 0)) (V c (Pipeline.arrRef spec0 1)) (V c (Pipeline.arrRef spec0 2)) :=
  (dat0 (F := Ideal) V c).arrAt_eq_of_cover 3
    (mmScale (K := 128) (V c (Pipeline.arrRef spec0 0)) (V c (Pipeline.arrRef spec0 1)) (V c (Pipeline.arrRef spec0 2)))
    (fun t _ => r0_flushed_eq V c t) r0_cover

end Cert.KernelIdeal.KVal

end
-- ==== Proof.KRegion1.lean ====
import proofs.«172860_j34376918237434_2_alg».proof.Proof.Gen.KernelIdeal.Frame
import proofs.«172860_j34376918237434_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
What each of the four node-tiled regions leaves in its output array, as ONE function of the arrays it reads: the 50
blocks of 2000 node rows tile the 100000 rows, block `t` of the output is the body's result on block `t` of the
row-tiled inputs and on the whole of the untiled ones (weights, bias row), so the array after the region is the
whole-array function of Spec, index by index.
-/

noncomputable section

open Idealize.ShloMosaic Idealize.ShloMosaic.TcCoe Idealize.ShloMosaic.ValueIdx Idealize.SL.Sem

namespace Cert.KernelIdeal.KVal

open Cert.KernelIdeal Cert.KernelIdeal.Gen Cert.Gcn

variable (V : (c : Dev nD) → (b : Ref sig .tc) → Buf (Elt Ideal) ((c : Thread nD τ).loc b))

/-- The two zero offsets, however spelt. -/
theorem r1_hz : (![0, 0] : Fin 2 → Nat) = fun _ => 0 := funext fun a => by fin_cases a <;> rfl

/-- An `[a, 1]` column broadcast to `[a, b]` reads, at `(p, c)`, the column's entry of row `p`. -/
theorem r1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row. -/
theorem r1_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contracted coordinate. -/
theorem r1_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contracted coordinate. -/
theorem r1_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
theorem r1_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The matrix product of a `[2000, 64]` block with the `[64, 64]` weights into a zero accumulator, at `(p, q)`:
    the sum over the contracted coordinate. -/
theorem r1_matmul_apply (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact r1_lhs_0 _ _
    | ⟨1, _⟩ => exact (r1_lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (r1_rhs_0 _ _).trans hk
    | ⟨1, _⟩ => exact r1_rhs_1 _ _)
  rw [el, er]

/-- The combined and rectified block at `(p, k)`. -/
def r1_act (x0 x1 : Vec Ideal S2000x64 .f32) (x2 : Vec Ideal S2000x1 .f32) (x3 : Vec Ideal S1x64 .f32) (p : Fin 2000) (k : Fin 64) : EReal :=
  max ((x0 (ix2 p k) + x1 (ix2 p k)) * x2 (ix2 p (0 : Fin 1)) + x3 (ix2 (0 : Fin 1) k)) 0

/-- The body's payload at `(p, q)`. -/
theorem r1_pay_apply (x0 x1 : Vec Ideal S2000x64 .f32) (x2 : Vec Ideal S2000x1 .f32) (x3 : Vec Ideal S1x64 .f32)
    (x4 : Vec Ideal S64x64 .f32) (p : Fin 2000) (q : Fin 64) :
    k1_pay1 x0 x1 x2 x3 x4 x2 (ix2 p q)
      = (∑ k : Fin 64, r1_act x0 x1 x2 x3 p k * x4 (ix2 k q)) * x2 (ix2 p (0 : Fin 1)) := by
  unfold k1_pay1
  simp only [shapeCast_self]
  rw [mulf_apply, r1_matmul_apply, r1_broadcastTo_a1_ab_apply]
  refine congrArg (· * x2 (ix2 p (0 : Fin 1))) (Finset.sum_congr rfl fun k _ => ?_)
  rw [truncf_apply, truncf_apply, maximumf_apply, addf_apply, mulf_apply, addf_apply, r1_broadcastTo_a1_ab_apply,
    broadcastTo_1b_ab_apply, broadcast_apply]
  unfold r1_act
  rw [show (Scalar.ofBits .f32 0x00000000#32 : Ideal .f32) = 0 from Ideal.ofBits_zero_f32]

/-- The fused whole-array function at an index, written out. -/
theorem r1_fused_apply (s hp : SNH'.Idx → EReal) (dc : SN1.Idx → EReal) (b : S1H.Idx → EReal)
    (w : (⟨2, ![64, 64]⟩ : Shape).Idx → EReal) (i : SNH'.Idx) :
    fused s hp dc b w i
      = (∑ k : Fin 64, max ((s (ix2 (row i) k) + hp (ix2 (row i) k)) * dc (ix2 (row i) (0 : Fin 1)) + b (ix2 (0 : Fin 1) k)) 0
            * w (ix2 k (col i))) * dc (ix2 (row i) (0 : Fin 1)) := rfl

/-- Block `n` of the output: when the row-tiled blocks are rows `n * 2000 + p` of their arrays and the untiled ones the
    whole arrays, the body's payload at `(p, q)` is the fused function at row `n * 2000 + p`, column `q`. -/
theorem r1_block (s hp : SNH'.Idx → EReal) (dc : SN1.Idx → EReal) (b : S1H.Idx → EReal)
    (w : (⟨2, ![64, 64]⟩ : Shape).Idx → EReal)
    (x0 x1 : Vec Ideal S2000x64 .f32) (x2 : Vec Ideal S2000x1 .f32) (x3 : Vec Ideal S1x64 .f32) (x4 : Vec Ideal S64x64 .f32)
    (n : ℕ) (hn : n < 50)
    (h0 : ∀ (p : Fin 2000) (k : Fin 64), x0 (ix2 p k) = s (ix2 (⟨n * 2000 + p.val, by have := p.isLt; omega⟩ : Fin 100000) k))
    (h1 : ∀ (p : Fin 2000) (k : Fin 64), x1 (ix2 p k) = hp (ix2 (⟨n * 2000 + p.val, by have := p.isLt; omega⟩ : Fin 100000) k))
    (h2 : ∀ p : Fin 2000, x2 (ix2 p (0 : Fin 1)) = dc (ix2 (⟨n * 2000 + p.val, by have := p.isLt; omega⟩ : Fin 100000) (0 : Fin 1)))
    (h3 : ∀ k : Fin 64, x3 (ix2 (0 : Fin 1) k) = b (ix2 (0 : Fin 1) k))
    (h4 : ∀ k q : Fin 64, x4 (ix2 k q) = w (ix2 k q))
    (p : Fin 2000) (q : Fin 64) :
    k1_pay1 x0 x1 x2 x3 x4 x2 (ix2 p q)
      = fused s hp dc b w (ix2 (⟨n * 2000 + p.val, by have := p.isLt; omega⟩ : Fin 100000) q) := by
  rw [r1_pay_apply, r1_fused_apply]
  unfold r1_act
  simp only [h0, h1, h2, h3, h4]

/-- The windows' index maps over the grid: a row-tiled window's block index at point `t` is `(t, 0)`, an untiled
    window's is `(0, 0)`. -/
theorem r1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A function of the array's index read through point `t`'s output block is the function at the block's element. -/
theorem r1_read_blk (G : S100000x64.Idx → EReal) (t : Fin cfg1.N) (y : S2000x64.Idx) :
    ((cfg1.win 5).blk t).view.read (Elt Ideal) G y = G (((cfg1.win 5).blk t).view.emb y) := rfl

set_option maxHeartbeats 1000000 in
/-- WHAT POINT `t` WRITES BACK is block `t` of the fused function of the arrays as the region finds them. -/
theorem r1_flushed_eq (c : Dev nD) (t : Fin cfg1.N) :
    (dat1 (F := Ideal) V c).flushed 5 t
      = ((cfg1.win 5).blk t).view.read (Elt Ideal) (fused (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero r1_hz]
  simp only [View.ld_unit_zero (S := S2000x64) r1_hz, View.ld_unit_zero (S := S2000x1) r1_hz,
    View.ld_unit_zero (S := S1x64) r1_hz, View.ld_unit_zero (S := S64x64) r1_hz]
  obtain ⟨e00, e01, e10, e11, e20, e21, e30, e31, e40, e41, e50, e51⟩ := r1_idx_facts t
  have ht : t.val < 50 := by have h := t.isLt; have hN : grid1.N = 50 := N_1; rw [← hN]; exact h
  funext j
  obtain ⟨p, q, rfl⟩ : ∃ (p : Fin 2000) (q : Fin 64), j = ix2 p q := ⟨_, _, eq_ix2 j⟩
  have hp : p.val < 2000 := p.isLt
  have hq : q.val < 64 := q.isLt
  refine (r1_block (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) t.val ht ?_ ?_ ?_ ?_ ?_ p q).trans ?_
  · intro p k
    show V c (Pipeline.arrRef spec1 0) (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 64 + 1 * k.val = k.val; omega
  · intro p k
    show V c (Pipeline.arrRef spec1 1) (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 64 + 1 * k.val = k.val; omega
  · intro p
    show V c (Pipeline.arrRef spec1 2) (((cfg1.win 2).blk t).view.emb (ix2 p (0 : Fin 1))) = _
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · intro k
    show V c (Pipeline.arrRef spec1 3) (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  · intro k q
    show V c (Pipeline.arrRef spec1 4) (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  · refine Eq.trans ?_ (r1_read_blk _ t (ix2 p q)).symm
    refine congrArg _ (funext fun a => Fin.ext ?_)
    match a with
    | ⟨0, _⟩ => show t.val * 2000 + p.val = win1_5.index t (0 : Fin 2) * 2000 + 1 * p.val; omega
    | ⟨1, _⟩ => show q.val = win1_5.index t (1 : Fin 2) * 64 + 1 * q.val; omega

/-- An index of the array is in point `t`'s block iff each coordinate is in the block's range on its axis. -/
theorem r1_mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_call0_v26).slice (win1_5.rect t)).set ↔ _
  rw [View.set_slice_whole, Rect.mem_set_unit]
  exact Iff.rfl

/-- Every index of the array is in some point's block: row `r` is in the block of point `r / 2000`. -/
theorem r1_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 2000 < grid1.N := by rw [N_1]; omega
  obtain ⟨-, -, -, -, -, -, -, -, -, -, e50, e51⟩ := r1_idx_facts ⟨(i 0).val / 2000, hlt⟩
  refine ⟨⟨(i 0).val / 2000, hlt⟩, flush1_5 _, ?_⟩
  rw [r1_mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 64 ≤ (i 1).val
      ∧ (i 1).val < win1_5.index ⟨(i 0).val / 2000, hlt⟩ (1 : Fin 2) * 64 + 64
    rw [e51]; omega

/-- Region 1 (combination, rectifier, next matrix product): its output array after the region. -/
theorem final1 (c : Dev nD) :
    (dat1 (F := Ideal) V c).arrAt 5 cfg1.N
      = fused (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 (fused (V c (Pipeline.arrRef spec1 0)) (V c (Pipeline.arrRef spec1 1)) (V c (Pipeline.arrRef spec1 2)) (V c (Pipeline.arrRef spec1 3)) (V c (Pipeline.arrRef spec1 4))) (fun t _ => r1_flushed_eq V c t) r1_cover

end Cert.KernelIdeal.KVal

end
-- ==== Proof.KRegion2.lean ====
import proofs.«172860_j34376918237434_2_alg».proof.Proof.Gen.KernelIdeal.Frame
import proofs.«172860_j34376918237434_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
What each of the four node-tiled regions leaves in its output array, as ONE function of the arrays it reads: the 50
blocks of 2000 node rows tile the 100000 rows, block `t` of the output is the body's result on block `t` of the
row-tiled inputs and on the whole of the untiled ones (weights, bias row), so the array after the region is the
whole-array function of Spec, index by index.
-/

noncomputable section

open Idealize.ShloMosaic Idealize.ShloMosaic.TcCoe Idealize.ShloMosaic.ValueIdx Idealize.SL.Sem

namespace Cert.KernelIdeal.KVal

open Cert.KernelIdeal Cert.KernelIdeal.Gen Cert.Gcn

variable (V : (c : Dev nD) → (b : Ref sig .tc) → Buf (Elt Ideal) ((c : Thread nD τ).loc b))

/-- The two zero offsets, however spelt. -/
theorem r2_hz : (![0, 0] : Fin 2 → Nat) = fun _ => 0 := funext fun a => by fin_cases a <;> rfl

/-- An `[a, 1]` column broadcast to `[a, b]` reads, at `(p, c)`, the column's entry of row `p`. -/
theorem r2_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row. -/
theorem r2_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contracted coordinate. -/
theorem r2_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contracted coordinate. -/
theorem r2_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
theorem r2_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The matrix product of a `[2000, 64]` block with the `[64, 64]` weights into a zero accumulator, at `(p, q)`:
    the sum over the contracted coordinate. -/
theorem r2_matmul_apply (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact r2_lhs_0 _ _
    | ⟨1, _⟩ => exact (r2_lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (r2_rhs_0 _ _).trans hk
    | ⟨1, _⟩ => exact r2_rhs_1 _ _)
  rw [el, er]

/-- The combined and rectified block at `(p, k)`. -/
def r2_act (x0 x1 : Vec Ideal S2000x64 .f32) (x2 : Vec Ideal S2000x1 .f32) (x3 : Vec Ideal S1x64 .f32) (p : Fin 2000) (k : Fin 64) : EReal :=
  max ((x0 (ix2 p k) + x1 (ix2 p k)) * x2 (ix2 p (0 : Fin 1)) + x3 (ix2 (0 : Fin 1) k)) 0

/-- The body's payload at `(p, q)`. -/
theorem r2_pay_apply (x0 x1 : Vec Ideal S2000x64 .f32) (x2 : Vec Ideal S2000x1 .f32) (x3 : Vec Ideal S1x64 .f32)
    (x4 : Vec Ideal S64x64 .f32) (p : Fin 2000) (q : Fin 64) :
    k2_pay1 x0 x1 x2 x3 x4 x2 (ix2 p q)
      = (∑ k : Fin 64, r2_act x0 x1 x2 x3 p k * x4 (ix2 k q)) * x2 (ix2 p (0 : Fin 1)) := by
  unfold k2_pay1
  simp only [shapeCast_self]
  rw [mulf_apply, r2_matmul_apply, r2_broadcastTo_a1_ab_apply]
  refine congrArg (· * x2 (ix2 p (0 : Fin 1))) (Finset.sum_congr rfl fun k _ => ?_)
  rw [truncf_apply, truncf_apply, maximumf_apply, addf_apply, mulf_apply, addf_apply, r2_broadcastTo_a1_ab_apply,
    broadcastTo_1b_ab_apply, broadcast_apply]
  unfold r2_act
  rw [show (Scalar.ofBits .f32 0x00000000#32 : Ideal .f32) = 0 from Ideal.ofBits_zero_f32]

/-- The fused whole-array function at an index, written out. -/
theorem r2_fused_apply (s hp : SNH'.Idx → EReal) (dc : SN1.Idx → EReal) (b : S1H.Idx → EReal)
    (w : (⟨2, ![64, 64]⟩ : Shape).Idx → EReal) (i : SNH'.Idx) :
    fused s hp dc b w i
      = (∑ k : Fin 64, max ((s (ix2 (row i) k) + hp (ix2 (row i) k)) * dc (ix2 (row i) (0 : Fin 1)) + b (ix2 (0 : Fin 1) k)) 0
            * w (ix2 k (col i))) * dc (ix2 (row i) (0 : Fin 1)) := rfl

/-- Block `n` of the output: when the row-tiled blocks are rows `n * 2000 + p` of their arrays and the untiled ones the
    whole arrays, the body's payload at `(p, q)` is the fused function at row `n * 2000 + p`, column `q`. -/
theorem r2_block (s hp : SNH'.Idx → EReal) (dc : SN1.Idx → EReal) (b : S1H.Idx → EReal)
    (w : (⟨2, ![64, 64]⟩ : Shape).Idx → EReal)
    (x0 x1 : Vec Ideal S2000x64 .f32) (x2 : Vec Ideal S2000x1 .f32) (x3 : Vec Ideal S1x64 .f32) (x4 : Vec Ideal S64x64 .f32)
    (n : ℕ) (hn : n < 50)
    (h0 : ∀ (p : Fin 2000) (k : Fin 64), x0 (ix2 p k) = s (ix2 (⟨n * 2000 + p.val, by have := p.isLt; omega⟩ : Fin 100000) k))
    (h1 : ∀ (p : Fin 2000) (k : Fin 64), x1 (ix2 p k) = hp (ix2 (⟨n * 2000 + p.val, by have := p.isLt; omega⟩ : Fin 100000) k))
    (h2 : ∀ p : Fin 2000, x2 (ix2 p (0 : Fin 1)) = dc (ix2 (⟨n * 2000 + p.val, by have := p.isLt; omega⟩ : Fin 100000) (0 : Fin 1)))
    (h3 : ∀ k : Fin 64, x3 (ix2 (0 : Fin 1) k) = b (ix2 (0 : Fin 1) k))
    (h4 : ∀ k q : Fin 64, x4 (ix2 k q) = w (ix2 k q))
    (p : Fin 2000) (q : Fin 64) :
    k2_pay1 x0 x1 x2 x3 x4 x2 (ix2 p q)
      = fused s hp dc b w (ix2 (⟨n * 2000 + p.val, by have := p.isLt; omega⟩ : Fin 100000) q) := by
  rw [r2_pay_apply, r2_fused_apply]
  unfold r2_act
  simp only [h0, h1, h2, h3, h4]

/-- The windows' index maps over the grid: a row-tiled window's block index at point `t` is `(t, 0)`, an untiled
    window's is `(0, 0)`. -/
theorem r2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A function of the array's index read through point `t`'s output block is the function at the block's element. -/
theorem r2_read_blk (G : S100000x64.Idx → EReal) (t : Fin cfg2.N) (y : S2000x64.Idx) :
    ((cfg2.win 5).blk t).view.read (Elt Ideal) G y = G (((cfg2.win 5).blk t).view.emb y) := rfl

set_option maxHeartbeats 1000000 in
/-- WHAT POINT `t` WRITES BACK is block `t` of the fused function of the arrays as the region finds them. -/
theorem r2_flushed_eq (c : Dev nD) (t : Fin cfg2.N) :
    (dat2 (F := Ideal) V c).flushed 5 t
      = ((cfg2.win 5).blk t).view.read (Elt Ideal) (fused (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero r2_hz]
  simp only [View.ld_unit_zero (S := S2000x64) r2_hz, View.ld_unit_zero (S := S2000x1) r2_hz,
    View.ld_unit_zero (S := S1x64) r2_hz, View.ld_unit_zero (S := S64x64) r2_hz]
  obtain ⟨e00, e01, e10, e11, e20, e21, e30, e31, e40, e41, e50, e51⟩ := r2_idx_facts t
  have ht : t.val < 50 := by have h := t.isLt; have hN : grid2.N = 50 := N_2; rw [← hN]; exact h
  funext j
  obtain ⟨p, q, rfl⟩ : ∃ (p : Fin 2000) (q : Fin 64), j = ix2 p q := ⟨_, _, eq_ix2 j⟩
  have hp : p.val < 2000 := p.isLt
  have hq : q.val < 64 := q.isLt
  refine (r2_block (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) t.val ht ?_ ?_ ?_ ?_ ?_ p q).trans ?_
  · intro p k
    show V c (Pipeline.arrRef spec2 0) (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 64 + 1 * k.val = k.val; omega
  · intro p k
    show V c (Pipeline.arrRef spec2 1) (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 64 + 1 * k.val = k.val; omega
  · intro p
    show V c (Pipeline.arrRef spec2 2) (((cfg2.win 2).blk t).view.emb (ix2 p (0 : Fin 1))) = _
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  · intro k
    show V c (Pipeline.arrRef spec2 3) (((cfg2.win 3).blk t).view.emb (ix2 (0 : Fin 1) k)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · intro k q
    show V c (Pipeline.arrRef spec2 4) (((cfg2.win 4).blk t).view.emb (ix2 k q)) = _
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * q.val = q.val; omega
  · refine Eq.trans ?_ (r2_read_blk _ t (ix2 p q)).symm
    refine congrArg _ (funext fun a => Fin.ext ?_)
    match a with
    | ⟨0, _⟩ => show t.val * 2000 + p.val = win2_5.index t (0 : Fin 2) * 2000 + 1 * p.val; omega
    | ⟨1, _⟩ => show q.val = win2_5.index t (1 : Fin 2) * 64 + 1 * q.val; omega

/-- An index of the array is in point `t`'s block iff each coordinate is in the block's range on its axis. -/
theorem r2_mem_blk (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_call0_v37).slice (win2_5.rect t)).set ↔ _
  rw [View.set_slice_whole, Rect.mem_set_unit]
  exact Iff.rfl

/-- Every index of the array is in some point's block: row `r` is in the block of point `r / 2000`. -/
theorem r2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hlt : (i 0).val / 2000 < grid2.N := by rw [N_2]; omega
  obtain ⟨-, -, -, -, -, -, -, -, -, -, e50, e51⟩ := r2_idx_facts ⟨(i 0).val / 2000, hlt⟩
  refine ⟨⟨(i 0).val / 2000, hlt⟩, flush2_5 _, ?_⟩
  rw [r2_mem_blk]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 64 ≤ (i 1).val
      ∧ (i 1).val < win2_5.index ⟨(i 0).val / 2000, hlt⟩ (1 : Fin 2) * 64 + 64
    rw [e51]; omega

/-- Region 2 (the same fused computation, one layer on). -/
theorem final2 (c : Dev nD) :
    (dat2 (F := Ideal) V c).arrAt 5 cfg2.N
      = fused (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 (fused (V c (Pipeline.arrRef spec2 0)) (V c (Pipeline.arrRef spec2 1)) (V c (Pipeline.arrRef spec2 2)) (V c (Pipeline.arrRef spec2 3)) (V c (Pipeline.arrRef spec2 4))) (fun t _ => r2_flushed_eq V c t) r2_cover

end Cert.KernelIdeal.KVal

end
-- ==== Proof.KRegion3.lean ====
import proofs.«172860_j34376918237434_2_alg».proof.Proof.Gen.KernelIdeal.Frame
import proofs.«172860_j34376918237434_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
What each of the four node-tiled regions leaves in its output array, as ONE function of the arrays it reads: the 50
blocks of 2000 node rows tile the 100000 rows, block `t` of the output is the body's result on block `t` of the
row-tiled inputs and on the whole of the untiled ones (weights, bias row), so the array after the region is the
whole-array function of Spec, index by index.
-/

noncomputable section

open Idealize.ShloMosaic Idealize.ShloMosaic.TcCoe Idealize.ShloMosaic.ValueIdx Idealize.SL.Sem

namespace Cert.KernelIdeal.KVal

open Cert.KernelIdeal Cert.KernelIdeal.Gen Cert.Gcn

variable (V : (c : Dev nD) → (b : Ref sig .tc) → Buf (Elt Ideal) ((c : Thread nD τ).loc b))

/-- The zero offsets of a whole-block access, as the constant function. -/
theorem r3_hz : (![0, 0] : Fin 2 → Nat) = fun _ => 0 := funext fun a => by fin_cases a <;> rfl

/-- A column `[a, 1]` broadcast to `[a, b]` reads, at `(p, c)`, the column's entry of row `p`. -/
theorem r3_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row `p`, column `q` of the block: the two row-tiled blocks added, scaled by the row's factor,
    plus the bias row's entry of the column. -/
theorem r3_pay_apply (x0 x1 : Vec Ideal S2000x64 .f32) (x2 : Vec Ideal S2000x1 .f32) (x3 : Vec Ideal S1x64 .f32)
    (p : Fin 2000) (q : Fin 64) :
    k3_pay1 x0 x1 x2 x3 (ix2 p q)
      = (x0 (ix2 p q) + x1 (ix2 p q)) * x2 (ix2 p (0 : Fin 1)) + x3 (ix2 (0 : Fin 1) q) := by
  unfold k3_pay1
  simp only [shapeCast_self]
  show (x0 (ix2 p q) + x1 (ix2 p q)) * broadcastTo S2000x64 x2 broadcasts_S2000x1_S2000x64 (ix2 p q)
      + broadcastTo S2000x64 x3 broadcasts_S1x64_S2000x64 (ix2 p q) = _
  rw [r3_broadcastTo_a1_ab_apply, broadcastTo_1b_ab_apply]

/-- The printed index maps over the grid: at point `t` every row-tiled window is at block `(t, 0)`, the bias row at `(0, 0)`. -/
theorem r3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Block `t` of the summed messages: its entry `(p, q)` is the array's entry of row `2000 t + p`, column `q`. -/
theorem r3_blk0 (c : Dev nD) (t : Fin cfg3.N) (p : Fin 2000) (q : Fin 64) (i : SNH'.Idx)
    (h0 : (i 0).val = t.val * 2000 + p.val) (h1 : (i 1).val = q.val) :
    (iblk3 V c 0 t : Vec Ideal S2000x64 .f32) (ix2 p q) = (V c (Pipeline.arrRef spec3 0) : SNH'.Idx → EReal) i := by
  obtain ⟨e0, e1, -⟩ := r3_idx_facts t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 2000 + 1 * p.val = (i 0).val; rw [e0, h0]; omega
  | ⟨1, _⟩ => show win3_0.index t (1 : Fin 2) * 64 + 1 * q.val = (i 1).val; rw [e1, h1]; omega

/-- Block `t` of the node's own scaled features, likewise. -/
theorem r3_blk1 (c : Dev nD) (t : Fin cfg3.N) (p : Fin 2000) (q : Fin 64) (i : SNH'.Idx)
    (h0 : (i 0).val = t.val * 2000 + p.val) (h1 : (i 1).val = q.val) :
    (iblk3 V c 1 t : Vec Ideal S2000x64 .f32) (ix2 p q) = (V c (Pipeline.arrRef spec3 1) : SNH'.Idx → EReal) i := by
  obtain ⟨-, -, e0, e1, -⟩ := r3_idx_facts t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 2000 + 1 * p.val = (i 0).val; rw [e0, h0]; omega
  | ⟨1, _⟩ => show win3_1.index t (1 : Fin 2) * 64 + 1 * q.val = (i 1).val; rw [e1, h1]; omega

/-- Block `t` of the per-node factors: its entry `(p, 0)` is the factor of node `2000 t + p`. -/
theorem r3_blk2 (c : Dev nD) (t : Fin cfg3.N) (p : Fin 2000) (i : SN1.Idx)
    (h0 : (i 0).val = t.val * 2000 + p.val) :
    (iblk3 V c 2 t : Vec Ideal S2000x1 .f32) (ix2 p (0 : Fin 1)) = (V c (Pipeline.arrRef spec3 2) : SN1.Idx → EReal) i := by
  obtain ⟨-, -, -, -, e0, e1, -⟩ := r3_idx_facts t
  unfold iblk3
  rw [View.read_apply]
  show V c (Pipeline.arrRef spec3 2) _ = V c (Pipeline.arrRef spec3 2) _
  refine congrArg _ (funext fun a => Fin.ext ?_)
  have h1 : (i 1).val < 1 := idx2_lt1 i
  match a with
  | ⟨0, _⟩ => show win3_2.index t (0 : Fin 2) * 2000 + 1 * p.val = (i 0).val; rw [e0, h0]; omega
  | ⟨1, _⟩ => show win3_2.index t (1 : Fin 2) * 1 + 1 * 0 = (i 1).val; rw [e1]; omega

/-- The bias row is staged whole at every point. -/
theorem r3_blk3 (c : Dev nD) (t : Fin cfg3.N) (q : Fin 64) (i : S1H.Idx) (h1 : (i 1).val = q.val) :
    (iblk3 V c 3 t : Vec Ideal S1x64 .f32) (ix2 (0 : Fin 1) q) = (V c (Pipeline.arrRef spec3 3) : S1H.Idx → EReal) i := by
  obtain ⟨-, -, -, -, -, -, e0, e1, -⟩ := r3_idx_facts t
  unfold iblk3
  rw [View.read_apply]
  show V c (Pipeline.arrRef spec3 3) _ = V c (Pipeline.arrRef spec3 3) _
  refine congrArg _ (funext fun a => Fin.ext ?_)
  have h0 : (i 0).val < 1 := idx2_lt0 i
  match a with
  | ⟨0, _⟩ => show win3_3.index t (0 : Fin 2) * 1 + 1 * 0 = (i 0).val; rw [e0]; omega
  | ⟨1, _⟩ => show win3_3.index t (1 : Fin 2) * 64 + 1 * q.val = (i 1).val; rw [e1, h1]; omega

/-- What point `t` writes back is block `t` of the whole-array combination of the arrays the region reads. -/
theorem r3_flushed_eq (c : Dev nD) (t : Fin cfg3.N) :
    (dat3 (F := Ideal) V c).flushed 4 t
      = ((cfg3.win 4).blk t).view.read (Elt Ideal)
          (combine (V c (Pipeline.arrRef spec3 0)) (V c (Pipeline.arrRef spec3 1)) (V c (Pipeline.arrRef spec3 2))
            (V c (Pipeline.arrRef spec3 3))) := by
  show (cfg3.win 4).cut (grid3.coords t) ((dat3 V c).after 4 t) = _
  rw [after3_4]
  unfold out3_4
  rw [View.canon_unit_zero r3_hz]
  simp only [View.ld_unit_zero (S := S2000x64) r3_hz, View.ld_unit_zero (S := S2000x1) r3_hz, View.ld_unit_zero (S := S1x64) r3_hz]
  obtain ⟨-, -, -, -, -, -, -, -, e40, e41⟩ := r3_idx_facts t
  funext j
  obtain ⟨p, q, rfl⟩ : ∃ (p : Fin 2000) (q : Fin 64), j = ix2 p q := ⟨j 0, j 1, eq_ix2 j⟩
  rw [View.read_apply]
  show k3_pay1 (iblk3 V c 0 t) (iblk3 V c 1 t) (iblk3 V c 2 t) (iblk3 V c 3 t) (ix2 p q)
    = combine (V c (Pipeline.arrRef spec3 0)) (V c (Pipeline.arrRef spec3 1)) (V c (Pipeline.arrRef spec3 2))
        (V c (Pipeline.arrRef spec3 3)) (((cfg3.win 4).blk t).view.emb (ix2 p q))
  have hi0 : ((((cfg3.win 4).blk t).view.emb (ix2 p q) : SNH'.Idx) 0).val = t.val * 2000 + p.val := by
    show win3_4.index t (0 : Fin 2) * 2000 + 1 * p.val = _; rw [e40]; omega
  have hi1 : ((((cfg3.win 4).blk t).view.emb (ix2 p q) : SNH'.Idx) 1).val = q.val := by
    show win3_4.index t (1 : Fin 2) * 64 + 1 * q.val = _; rw [e41]; omega
  refine (r3_pay_apply (iblk3 V c 0 t) (iblk3 V c 1 t) (iblk3 V c 2 t) (iblk3 V c 3 t) p q).trans ?_
  unfold combine
  rw [r3_blk0 V c t p q _ hi0 hi1, r3_blk1 V c t p q _ hi0 hi1,
    r3_blk2 V c t p (ix2 (row (((cfg3.win 4).blk t).view.emb (ix2 p q) : SNH'.Idx)) (0 : Fin 1)) hi0,
    r3_blk3 V c t q (ix2 (0 : Fin 1) (col (((cfg3.win 4).blk t).view.emb (ix2 p q) : SNH'.Idx))) hi1]

/-- An index of the output array lies in point `t`'s block iff, on each axis, its coordinate lies in the block's range. -/
theorem r3_mem_blk (t : Fin cfg3.N) (i : SNH'.Idx) :
    i ∈ ((cfg3.win 4).blk t).view.set
      ↔ ∀ a : Fin 2, win3_4.index t a * S2000x64.size a ≤ (i a).val
          ∧ (i a).val < win3_4.index t a * S2000x64.size a + S2000x64.size a := by
  show i ∈ ((View.whole main_call0_v48).slice (win3_4.rect t)).set ↔ _
  rw [View.set_slice_whole, Rect.mem_set_unit]
  exact Iff.rfl

/-- The 50 blocks of 2000 rows tile the 100000 rows: row `r` lies in the block of point `r / 2000`. -/
theorem r3_cover (i : SNH'.Idx) :
    ∃ t : Fin cfg3.N, (cfg3.win 4).flush t = true ∧ i ∈ ((cfg3.win 4).blk t).view.set := by
  have hi0 : (i 0).val < 100000 := idx2_lt0 i
  have hi1 : (i 1).val < 64 := idx2_lt1 i
  have hN : grid3.N = 50 := N_3
  have ht : (i 0).val / 2000 < grid3.N := by rw [hN]; omega
  obtain ⟨-, -, -, -, -, -, -, -, e40, e41⟩ := r3_idx_facts ⟨(i 0).val / 2000, ht⟩
  refine ⟨⟨(i 0).val / 2000, ht⟩, flush3_4 _, ?_⟩
  rw [r3_mem_blk]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win3_4.index ⟨(i 0).val / 2000, ht⟩ (1 : Fin 2) * 64 ≤ (i 1).val
      ∧ (i 1).val < win3_4.index ⟨(i 0).val / 2000, ht⟩ (1 : Fin 2) * 64 + 64
    rw [e41]; omega

/-- Region 3 (the last layer's combination, no rectifier). -/
theorem final3 (c : Dev nD) :
    (dat3 (F := Ideal) V c).arrAt 4 cfg3.N
      = combine (V c (Pipeline.arrRef spec3 0)) (V c (Pipeline.arrRef spec3 1)) (V c (Pipeline.arrRef spec3 2))
          (V c (Pipeline.arrRef spec3 3)) :=
  (dat3 (F := Ideal) V c).arrAt_eq_of_cover 4
    (combine (V c (Pipeline.arrRef spec3 0)) (V c (Pipeline.arrRef spec3 1)) (V c (Pipeline.arrRef spec3 2))
      (V c (Pipeline.arrRef spec3 3)))
    (fun t _ => r3_flushed_eq V c t) r3_cover

end Cert.KernelIdeal.KVal

end
-- ==== Proof.KHost.lean ====
import proofs.«172860_j34376918237434_2_alg».proof.Proof.Gen.KernelIdeal.Frame
import proofs.«172860_j34376918237434_2_alg».proof.Proof.Ops
import proofs.«172860_j34376918237434_2_alg».proof.Proof.KRegion0
import proofs.«172860_j34376918237434_2_alg».proof.Proof.KRegion1
import proofs.«172860_j34376918237434_2_alg».proof.Proof.KRegion2
import proofs.«172860_j34376918237434_2_alg».proof.Proof.KRegion3
import Idealize.ShloMosaic.Lib.StableHlo.Run
import Idealize.ShloMosaic.PureOps.Ideal

/-!
The idealized kernel program's result buffer, read back through its nine segments: each host stretch's values from the
contents it starts from, each region's output array from its whole-array function of the region's input arrays, every
buffer a later segment reads carried unchanged through the segments that do not write it.
-/

set_option maxRecDepth 16384

noncomputable section

namespace Cert.KernelIdeal.KVal

open Cert.KernelIdeal Cert.KernelIdeal.Gen Cert.Gcn
open Idealize.ShloMosaic Idealize.ShloMosaic.TcCoe Idealize.ShloMosaic.Tactic Idealize.SL.Sem Idealize.ShloMosaic.StableHlo

local notation "φ" => Cert.Gcn.shapeFacts

/-- Moving contents to a typed reference's buffer type and back is the identity. -/
theorem ofBuf_toBuf {T : BufTy} {Val : EltTy → Type} (x : StableHlo.TRef sig T) (v : T.Contents Val) : x.ofBuf (x.toBuf v) = v := by
  obtain ⟨r, h, hd, hu⟩ := x
  subst h
  rfl

/-- The factor vector moved to its buffer's type is itself. -/
theorem toBuf_v10 (v : (⟨S100000, .f32⟩ : BufTy).Contents (Elt Ideal)) :
    (StableHlo.TRef.of (sig := sig) (T := ⟨S100000, .f32⟩) main_call0_v10).toBuf v = v := rfl

variable (m : (ℓ : Loc nD τ sig) → Buf (Elt Ideal) ℓ) (ρ : Dev nD → PrngReg) (c : Dev nD)

/-- The per-node factor's column, from the edge list. -/
abbrev dcK : FVec Ideal SN1 .f32 := dcOf φ (dinvOf φ (dstOf φ (m ((c : Thread nD τ).loc main_arg1))))
/-- Layer 1's scaled projection. -/
abbrev hp1K : FVec Ideal SNH .f32 := mmScale (K := 128) (m ((c : Thread nD τ).loc main_arg0)) (m ((c : Thread nD τ).loc main_arg3)) (dcK m c)
/-- Layer 1's messages summed per destination. -/
abbrev s1K : FVec Ideal SNH .f32 := scat φ (hp1K m c) (srcOf φ (m ((c : Thread nD τ).loc main_arg1))) (dstOf φ (m ((c : Thread nD τ).loc main_arg1)))
/-- Layer 2's scaled projection of layer 1's rectified output. -/
abbrev hp2K : FVec Ideal SNH .f32 := fused (s1K m c) (hp1K m c) (dcK m c) (browOf φ (m ((c : Thread nD τ).loc main_arg4))) (m ((c : Thread nD τ).loc main_arg5))
/-- Layer 2's messages summed per destination. -/
abbrev s2K : FVec Ideal SNH .f32 := scat φ (hp2K m c) (srcOf φ (m ((c : Thread nD τ).loc main_arg1))) (dstOf φ (m ((c : Thread nD τ).loc main_arg1)))
/-- Layer 3's scaled projection of layer 2's rectified output. -/
abbrev hp3K : FVec Ideal SNH .f32 := fused (s2K m c) (hp2K m c) (dcK m c) (browOf φ (m ((c : Thread nD τ).loc main_arg6))) (m ((c : Thread nD τ).loc main_arg7))
/-- Layer 3's messages summed per destination. -/
abbrev s3K : FVec Ideal SNH .f32 := scat φ (hp3K m c) (srcOf φ (m ((c : Thread nD τ).loc main_arg1))) (dstOf φ (m ((c : Thread nD τ).loc main_arg1)))
/-- Layer 3's output. -/
abbrev h3K : FVec Ideal SNH .f32 := combine (s3K m c) (hp3K m c) (dcK m c) (browOf φ (m ((c : Thread nD τ).loc main_arg8)))

theorem w1_v1 : W1 m ρ c (Proc.devRef .tc main_call0_v1) = (srcOf φ (m ((c : Thread nD τ).loc main_arg1))) :=
  by
  show StableHlo.after hostOps0 (W0 m ρ c) (Proc.devRef .tc main_call0_v1) = _
  after_results
  simp only [ofBuf_toBuf]
  exact rfl
theorem w1_v3 : W1 m ρ c (Proc.devRef .tc main_call0_v3) = (dstOf φ (m ((c : Thread nD τ).loc main_arg1))) :=
  by
  show StableHlo.after hostOps0 (W0 m ρ c) (Proc.devRef .tc main_call0_v3) = _
  after_results
  simp only [ofBuf_toBuf]
  exact rfl
theorem w1_v12 : W1 m ρ c (Proc.devRef .tc main_call0_v12) = (browOf φ (m ((c : Thread nD τ).loc main_arg4))) :=
  by
  show StableHlo.after hostOps0 (W0 m ρ c) (Proc.devRef .tc main_call0_v12) = _
  after_results
  simp only [ofBuf_toBuf]
  exact rfl
theorem w1_v13 : W1 m ρ c (Proc.devRef .tc main_call0_v13) = (browOf φ (m ((c : Thread nD τ).loc main_arg6))) :=
  by
  show StableHlo.after hostOps0 (W0 m ρ c) (Proc.devRef .tc main_call0_v13) = _
  after_results
  simp only [ofBuf_toBuf]
  exact rfl
theorem w1_v14 : W1 m ρ c (Proc.devRef .tc main_call0_v14) = (browOf φ (m ((c : Thread nD τ).loc main_arg8))) :=
  by
  show StableHlo.after hostOps0 (W0 m ρ c) (Proc.devRef .tc main_call0_v14) = _
  after_results
  simp only [ofBuf_toBuf]
  exact rfl
/-- The factor column at the first region's entry. The destinations are read off the stretch's first four operations and named
    before the remaining operations are read, so that the two sides are compared with the destinations one shared term. -/
theorem w1_v11 : W1 m ρ c (Proc.devRef .tc main_call0_v11) = (dcK m c) := by
  have hA : StableHlo.after (hostOps0.take 4) (W0 m ρ c) (Proc.devRef .tc main_call0_v3) = dstOf φ (m ((c : Thread nD τ).loc main_arg1)) := by
    dsimp only [hostOps0, List.take]
    after_results
    simp only [ofBuf_toBuf]
    exact rfl
  show StableHlo.after (hostOps0.drop 4) (StableHlo.after (hostOps0.take 4) (W0 m ρ c)) (Proc.devRef .tc main_call0_v11) = _
  generalize StableHlo.after (hostOps0.take 4) (W0 m ρ c) = WA at hA ⊢
  dsimp only [hostOps0, List.drop]
  after_results
  simp only [ofBuf_toBuf, hA, toBuf_v10]
  exact rfl
theorem w1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) from
    StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem w1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) from
    StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem w1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) from
    StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem w1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) from
    StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem w2_v1 : W2 m ρ c (Proc.devRef .tc main_call0_v1) = (srcOf φ (m ((c : Thread nD τ).loc main_arg1))) :=
  (W2_of_ne m ρ c main_call0_v1 (by decide)).trans (w1_v1 m ρ c)
theorem w2_v3 : W2 m ρ c (Proc.devRef .tc main_call0_v3) = (dstOf φ (m ((c : Thread nD τ).loc main_arg1))) :=
  (W2_of_ne m ρ c main_call0_v3 (by decide)).trans (w1_v3 m ρ c)
theorem w2_v12 : W2 m ρ c (Proc.devRef .tc main_call0_v12) = (browOf φ (m ((c : Thread nD τ).loc main_arg4))) :=
  (W2_of_ne m ρ c main_call0_v12 (by decide)).trans (w1_v12 m ρ c)
theorem w2_v13 : W2 m ρ c (Proc.devRef .tc main_call0_v13) = (browOf φ (m ((c : Thread nD τ).loc main_arg6))) :=
  (W2_of_ne m ρ c main_call0_v13 (by decide)).trans (w1_v13 m ρ c)
theorem w2_v14 : W2 m ρ c (Proc.devRef .tc main_call0_v14) = (browOf φ (m ((c : Thread nD τ).loc main_arg8))) :=
  (W2_of_ne m ρ c main_call0_v14 (by decide)).trans (w1_v14 m ρ c)
theorem w2_arg5 : W2 m ρ c (Proc.devRef .tc main_arg5) = (m ((c : Thread nD τ).loc main_arg5)) :=
  (W2_of_ne m ρ c main_arg5 (by decide)).trans (w1_arg5 m ρ c)
theorem w2_arg7 : W2 m ρ c (Proc.devRef .tc main_arg7) = (m ((c : Thread nD τ).loc main_arg7)) :=
  (W2_of_ne m ρ c main_arg7 (by decide)).trans (w1_arg7 m ρ c)
theorem w2_v11 : W2 m ρ c (Proc.devRef .tc main_call0_v11) = (dcK m c) :=
  (W2_arr m ρ c 2).trans (((dat0 (V1 m ρ) c).arrAt_in 2 rfl _).trans ((A_eq0 (V1 m ρ) c 2).trans (w1_v11 m ρ c)))
theorem w2_v15 : W2 m ρ c (Proc.devRef .tc main_call0_v15) = (hp1K m c) :=
  (W2_arr m ρ c 3).trans ((final0 (V1 m ρ) c).trans (by
    show mmScale (K := 128) (W1 m ρ c (Proc.devRef .tc main_arg0)) (W1 m ρ c (Proc.devRef .tc main_arg3)) (W1 m ρ c (Proc.devRef .tc main_call0_v11)) = _
    rw [w1_arg0, w1_arg3, w1_v11]))
theorem w3_v1 : W3 m ρ c (Proc.devRef .tc main_call0_v1) = (srcOf φ (m ((c : Thread nD τ).loc main_arg1))) :=
  (show StableHlo.after hostOps1 (W2 m ρ c) (Proc.devRef .tc main_call0_v1) = W2 m ρ c (Proc.devRef .tc main_call0_v1) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v1 m ρ c)
theorem w3_v3 : W3 m ρ c (Proc.devRef .tc main_call0_v3) = (dstOf φ (m ((c : Thread nD τ).loc main_arg1))) :=
  (show StableHlo.after hostOps1 (W2 m ρ c) (Proc.devRef .tc main_call0_v3) = W2 m ρ c (Proc.devRef .tc main_call0_v3) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v3 m ρ c)
theorem w3_v11 : W3 m ρ c (Proc.devRef .tc main_call0_v11) = (dcK m c) :=
  (show StableHlo.after hostOps1 (W2 m ρ c) (Proc.devRef .tc main_call0_v11) = W2 m ρ c (Proc.devRef .tc main_call0_v11) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v11 m ρ c)
theorem w3_v12 : W3 m ρ c (Proc.devRef .tc main_call0_v12) = (browOf φ (m ((c : Thread nD τ).loc main_arg4))) :=
  (show StableHlo.after hostOps1 (W2 m ρ c) (Proc.devRef .tc main_call0_v12) = W2 m ρ c (Proc.devRef .tc main_call0_v12) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v12 m ρ c)
theorem w3_v13 : W3 m ρ c (Proc.devRef .tc main_call0_v13) = (browOf φ (m ((c : Thread nD τ).loc main_arg6))) :=
  (show StableHlo.after hostOps1 (W2 m ρ c) (Proc.devRef .tc main_call0_v13) = W2 m ρ c (Proc.devRef .tc main_call0_v13) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v13 m ρ c)
theorem w3_v14 : W3 m ρ c (Proc.devRef .tc main_call0_v14) = (browOf φ (m ((c : Thread nD τ).loc main_arg8))) :=
  (show StableHlo.after hostOps1 (W2 m ρ c) (Proc.devRef .tc main_call0_v14) = W2 m ρ c (Proc.devRef .tc main_call0_v14) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v14 m ρ c)
theorem w3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_arg5 m ρ c)
theorem w3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_arg7 m ρ c)
theorem w3_v15 : W3 m ρ c (Proc.devRef .tc main_call0_v15) = (hp1K m c) :=
  (show StableHlo.after hostOps1 (W2 m ρ c) (Proc.devRef .tc main_call0_v15) = W2 m ρ c (Proc.devRef .tc main_call0_v15) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w2_v15 m ρ c)
set_option maxHeartbeats 1000000 in
theorem w3_v25 : W3 m ρ c (Proc.devRef .tc main_call0_v25) = (s1K m c) := by
  have e : W3 m ρ c (Proc.devRef .tc main_call0_v25)
      = scat φ (W2 m ρ c (Proc.devRef .tc main_call0_v15)) (W2 m ρ c (Proc.devRef .tc main_call0_v1)) (W2 m ρ c (Proc.devRef .tc main_call0_v3)) := by
    show StableHlo.after hostOps1 (W2 m ρ c) (Proc.devRef .tc main_call0_v25) = _
    generalize W2 m ρ c = Wv
    after_results
    simp only [ofBuf_toBuf]
    exact rfl
  rw [e, w2_v15, w2_v1, w2_v3]
theorem w4_v1 : W4 m ρ c (Proc.devRef .tc main_call0_v1) = (srcOf φ (m ((c : Thread nD τ).loc main_arg1))) :=
  (W4_of_ne m ρ c main_call0_v1 (by decide)).trans (w3_v1 m ρ c)
theorem w4_v3 : W4 m ρ c (Proc.devRef .tc main_call0_v3) = (dstOf φ (m ((c : Thread nD τ).loc main_arg1))) :=
  (W4_of_ne m ρ c main_call0_v3 (by decide)).trans (w3_v3 m ρ c)
theorem w4_v13 : W4 m ρ c (Proc.devRef .tc main_call0_v13) = (browOf φ (m ((c : Thread nD τ).loc main_arg6))) :=
  (W4_of_ne m ρ c main_call0_v13 (by decide)).trans (w3_v13 m ρ c)
theorem w4_v14 : W4 m ρ c (Proc.devRef .tc main_call0_v14) = (browOf φ (m ((c : Thread nD τ).loc main_arg8))) :=
  (W4_of_ne m ρ c main_call0_v14 (by decide)).trans (w3_v14 m ρ c)
theorem w4_arg7 : W4 m ρ c (Proc.devRef .tc main_arg7) = (m ((c : Thread nD τ).loc main_arg7)) :=
  (W4_of_ne m ρ c main_arg7 (by decide)).trans (w3_arg7 m ρ c)
theorem w4_v11 : W4 m ρ c (Proc.devRef .tc main_call0_v11) = (dcK m c) :=
  (W4_arr m ρ c 2).trans (((dat1 (V3 m ρ) c).arrAt_in 2 rfl _).trans ((A_eq1 (V3 m ρ) c 2).trans (w3_v11 m ρ c)))
theorem w4_v26 : W4 m ρ c (Proc.devRef .tc main_call0_v26) = (hp2K m c) :=
  (W4_arr m ρ c 5).trans ((final1 (V3 m ρ) c).trans (by
    show fused (W3 m ρ c (Proc.devRef .tc main_call0_v25)) (W3 m ρ c (Proc.devRef .tc main_call0_v15)) (W3 m ρ c (Proc.devRef .tc main_call0_v11)) (W3 m ρ c (Proc.devRef .tc main_call0_v12)) (W3 m ρ c (Proc.devRef .tc main_arg5)) = _
    rw [w3_v25, w3_v15, w3_v11, w3_v12, w3_arg5]))
theorem w5_v1 : W5 m ρ c (Proc.devRef .tc main_call0_v1) = (srcOf φ (m ((c : Thread nD τ).loc main_arg1))) :=
  (show StableHlo.after hostOps2 (W4 m ρ c) (Proc.devRef .tc main_call0_v1) = W4 m ρ c (Proc.devRef .tc main_call0_v1) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v1 m ρ c)
theorem w5_v3 : W5 m ρ c (Proc.devRef .tc main_call0_v3) = (dstOf φ (m ((c : Thread nD τ).loc main_arg1))) :=
  (show StableHlo.after hostOps2 (W4 m ρ c) (Proc.devRef .tc main_call0_v3) = W4 m ρ c (Proc.devRef .tc main_call0_v3) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v3 m ρ c)
theorem w5_v11 : W5 m ρ c (Proc.devRef .tc main_call0_v11) = (dcK m c) :=
  (show StableHlo.after hostOps2 (W4 m ρ c) (Proc.devRef .tc main_call0_v11) = W4 m ρ c (Proc.devRef .tc main_call0_v11) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v11 m ρ c)
theorem w5_v13 : W5 m ρ c (Proc.devRef .tc main_call0_v13) = (browOf φ (m ((c : Thread nD τ).loc main_arg6))) :=
  (show StableHlo.after hostOps2 (W4 m ρ c) (Proc.devRef .tc main_call0_v13) = W4 m ρ c (Proc.devRef .tc main_call0_v13) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v13 m ρ c)
theorem w5_v14 : W5 m ρ c (Proc.devRef .tc main_call0_v14) = (browOf φ (m ((c : Thread nD τ).loc main_arg8))) :=
  (show StableHlo.after hostOps2 (W4 m ρ c) (Proc.devRef .tc main_call0_v14) = W4 m ρ c (Proc.devRef .tc main_call0_v14) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v14 m ρ c)
theorem w5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_arg7 m ρ c)
theorem w5_v26 : W5 m ρ c (Proc.devRef .tc main_call0_v26) = (hp2K m c) :=
  (show StableHlo.after hostOps2 (W4 m ρ c) (Proc.devRef .tc main_call0_v26) = W4 m ρ c (Proc.devRef .tc main_call0_v26) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w4_v26 m ρ c)
set_option maxHeartbeats 1000000 in
theorem w5_v36 : W5 m ρ c (Proc.devRef .tc main_call0_v36) = (s2K m c) := by
  have e : W5 m ρ c (Proc.devRef .tc main_call0_v36)
      = scat φ (W4 m ρ c (Proc.devRef .tc main_call0_v26)) (W4 m ρ c (Proc.devRef .tc main_call0_v1)) (W4 m ρ c (Proc.devRef .tc main_call0_v3)) := by
    show StableHlo.after hostOps2 (W4 m ρ c) (Proc.devRef .tc main_call0_v36) = _
    generalize W4 m ρ c = Wv
    after_results
    simp only [ofBuf_toBuf]
    exact rfl
  rw [e, w4_v26, w4_v1, w4_v3]
theorem w6_v1 : W6 m ρ c (Proc.devRef .tc main_call0_v1) = (srcOf φ (m ((c : Thread nD τ).loc main_arg1))) :=
  (W6_of_ne m ρ c main_call0_v1 (by decide)).trans (w5_v1 m ρ c)
theorem w6_v3 : W6 m ρ c (Proc.devRef .tc main_call0_v3) = (dstOf φ (m ((c : Thread nD τ).loc main_arg1))) :=
  (W6_of_ne m ρ c main_call0_v3 (by decide)).trans (w5_v3 m ρ c)
theorem w6_v14 : W6 m ρ c (Proc.devRef .tc main_call0_v14) = (browOf φ (m ((c : Thread nD τ).loc main_arg8))) :=
  (W6_of_ne m ρ c main_call0_v14 (by decide)).trans (w5_v14 m ρ c)
theorem w6_v11 : W6 m ρ c (Proc.devRef .tc main_call0_v11) = (dcK m c) :=
  (W6_arr m ρ c 2).trans (((dat2 (V5 m ρ) c).arrAt_in 2 rfl _).trans ((A_eq2 (V5 m ρ) c 2).trans (w5_v11 m ρ c)))
theorem w6_v37 : W6 m ρ c (Proc.devRef .tc main_call0_v37) = (hp3K m c) :=
  (W6_arr m ρ c 5).trans ((final2 (V5 m ρ) c).trans (by
    show fused (W5 m ρ c (Proc.devRef .tc main_call0_v36)) (W5 m ρ c (Proc.devRef .tc main_call0_v26)) (W5 m ρ c (Proc.devRef .tc main_call0_v11)) (W5 m ρ c (Proc.devRef .tc main_call0_v13)) (W5 m ρ c (Proc.devRef .tc main_arg7)) = _
    rw [w5_v36, w5_v26, w5_v11, w5_v13, w5_arg7]))
theorem w7_v11 : W7 m ρ c (Proc.devRef .tc main_call0_v11) = (dcK m c) :=
  (show StableHlo.after hostOps3 (W6 m ρ c) (Proc.devRef .tc main_call0_v11) = W6 m ρ c (Proc.devRef .tc main_call0_v11) from
    StableHlo.after_of_forall_not_mem _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w6_v11 m ρ c)
theorem w7_v14 : W7 m ρ c (Proc.devRef .tc main_call0_v14) = (browOf φ (m ((c : Thread nD τ).loc main_arg8))) :=
  (show StableHlo.after hostOps3 (W6 m ρ c) (Proc.devRef .tc main_call0_v14) = W6 m ρ c (Proc.devRef .tc main_call0_v14) from
    StableHlo.after_of_forall_not_mem _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w6_v14 m ρ c)
theorem w7_v37 : W7 m ρ c (Proc.devRef .tc main_call0_v37) = (hp3K m c) :=
  (show StableHlo.after hostOps3 (W6 m ρ c) (Proc.devRef .tc main_call0_v37) = W6 m ρ c (Proc.devRef .tc main_call0_v37) from
    StableHlo.after_of_forall_not_mem _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (w6_v37 m ρ c)
set_option maxHeartbeats 1000000 in
theorem w7_v47 : W7 m ρ c (Proc.devRef .tc main_call0_v47) = (s3K m c) := by
  have e : W7 m ρ c (Proc.devRef .tc main_call0_v47)
      = scat φ (W6 m ρ c (Proc.devRef .tc main_call0_v37)) (W6 m ρ c (Proc.devRef .tc main_call0_v1)) (W6 m ρ c (Proc.devRef .tc main_call0_v3)) := by
    show StableHlo.after hostOps3 (W6 m ρ c) (Proc.devRef .tc main_call0_v47) = _
    generalize W6 m ρ c = Wv
    after_results
    simp only [ofBuf_toBuf]
    exact rfl
  rw [e, w6_v37, w6_v1, w6_v3]
theorem w8_v48 : W8 m ρ c (Proc.devRef .tc main_call0_v48) = (h3K m c) :=
  (W8_arr m ρ c 4).trans ((final3 (V7 m ρ) c).trans (by
    show combine (W7 m ρ c (Proc.devRef .tc main_call0_v47)) (W7 m ρ c (Proc.devRef .tc main_call0_v37)) (W7 m ρ c (Proc.devRef .tc main_call0_v11)) (W7 m ρ c (Proc.devRef .tc main_call0_v14)) = _
    rw [w7_v47, w7_v37, w7_v11, w7_v14]))
theorem w8_arg2 : W8 m ρ c (Proc.devRef .tc main_arg2) = (m ((c : Thread nD τ).loc main_arg2)) :=
  ((show StableHlo.after hostOps4 (W8 m ρ c) (Proc.devRef .tc main_arg2) = W8 m ρ c (Proc.devRef .tc main_arg2) from
    StableHlo.after_of_forall_not_mem _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm).trans (W9_main_arg2 m ρ c)
theorem w8_arg9 : W8 m ρ c (Proc.devRef .tc main_arg9) = (m ((c : Thread nD τ).loc main_arg9)) :=
  ((show StableHlo.after hostOps4 (W8 m ρ c) (Proc.devRef .tc main_arg9) = W8 m ρ c (Proc.devRef .tc main_arg9) from
    StableHlo.after_of_forall_not_mem _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm).trans (W9_main_arg9 m ρ c)
theorem w8_arg10 : W8 m ρ c (Proc.devRef .tc main_arg10) = (m ((c : Thread nD τ).loc main_arg10)) :=
  ((show StableHlo.after hostOps4 (W8 m ρ c) (Proc.devRef .tc main_arg10) = W8 m ρ c (Proc.devRef .tc main_arg10) from
    StableHlo.after_of_forall_not_mem _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm).trans (W9_main_arg10 m ρ c)
set_option maxHeartbeats 2000000 in
/-- THE KERNEL PROGRAM'S RESULT, as the composition of its regions' whole-array functions and its host operations. -/
theorem kernel_value : W9 m ρ c (Proc.devRef .tc main_v0)
    = kerValue φ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W9 m ρ c (Proc.devRef .tc main_v0)
      = tailG φ (W8 m ρ c (Proc.devRef .tc main_call0_v48)) (W8 m ρ c (Proc.devRef .tc main_arg2)) (W8 m ρ c (Proc.devRef .tc main_arg9)) (W8 m ρ c (Proc.devRef .tc main_arg10)) := by
    show StableHlo.after hostOps4 (W8 m ρ c) (Proc.devRef .tc main_v0) = _
    generalize W8 m ρ c = Wv
    after_results
    simp only [ofBuf_toBuf]
    exact rfl
  rw [e, w8_v48, w8_arg2, w8_arg9, w8_arg10]
  rfl

end Cert.KernelIdeal.KVal

end
-- ==== Proof.RefValue.lean ====
import proofs.«172860_j34376918237434_2_alg».proof.Proof.Gen.ReferenceIdeal.Run
import proofs.«172860_j34376918237434_2_alg».proof.Proof.Ops
import Idealize.ShloMosaic.PureOps.Ideal

/-!
The reference program's result term is the composition of three convolution layers, two rectifiers, the pooling and
the final linear layer: its operations, grouped.
-/

set_option maxRecDepth 65536

noncomputable section

namespace Cert.ReferenceIdeal.RefValue

open Cert.ReferenceIdeal Cert.ReferenceIdeal.Gen Cert.Gcn
open Idealize.ShloMosaic Idealize.ShloMosaic.TcCoe Idealize.SL.Sem

/-- The reference run's result term, grouped by layer. -/
theorem ref_value (m : (ℓ : Loc nD τ sig) → Buf (Elt Ideal) ℓ) (c : Dev nD) :
    Cert.ReferenceIdeal.Value.res_main_v139 (F := Ideal) m c
      = refValue shapeFacts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v139
  rfl

end Cert.ReferenceIdeal.RefValue

end
-- ==== Proof.OpsRead.lean ====
import proofs.«172860_j34376918237434_2_alg».proof.Proof.Ops
import Idealize.ShloMosaic.Lib.Pipeline.Value
import Idealize.ShloMosaic.Lib.ValueIdx
import Idealize.ShloMosaic.Lib.ValueLayout
import Idealize.ShloMosaic.PureOps.Ideal.Laws

/-!
The host-side operations read at an index: the gather-and-sum of rows as a sum over the updates landing on a node
row; the reference's convolution layer as that sum of per-edge scaled messages plus the self-loop term plus the
bias; the column and row re-layouts; the rectifier; and a host matrix product as the textbook sum.
-/

noncomputable section

open Idealize.ShloMosaic Idealize.ShloMosaic.ValueIdx

namespace Cert.Gcn

variable (φ : ShapeFacts)

/-- The edge of an update index, as an index of the per-edge arrays. -/
abbrev edgeOf (j : SEH.Idx) : SE.Idx := ix1 (row j)

/-- A broadcast scalar constant reads its value everywhere (the four shapes the programs broadcast zero or one to). -/
theorem bconst_N (w : BitVec 32) (n : SN.Idx) :
    broadcastInDim SN ![] φ.b0_N (constant (F := Ideal) S0 .f32 w) n = Ideal.ofBits .f32 w := by
  rfl
theorem bconst_E (w : BitVec 32) (e : SE.Idx) :
    broadcastInDim SE ![] φ.b0_E (constant (F := Ideal) S0 .f32 w) e = Ideal.ofBits .f32 w := by
  rfl
theorem bconst_NH (w : BitVec 32) (i : SNH.Idx) :
    broadcastInDim SNH ![] φ.b0_NH (constant (F := Ideal) S0 .f32 w) i = Ideal.ofBits .f32 w := by
  rfl

/-- The raw scatter index of an edge is the edge's entry of the index vector. -/
theorem rawIdx_apply (v : IVec SE 32) (e : Fin 1600000) : rawIdx φ v (ix2 e (0 : Fin 1)) = v (ix1 e) := by
  unfold rawIdx
  -- the [E] → [E, 1] broadcast reads the operand at the row coordinate
  exact broadcastInDim_apply _ φ.bE_E1 v (ix2 e (0 : Fin 1)) (ix1 e) (fun a => match a with
    | ⟨0, _⟩ => by show e.val = if (1600000 : Nat) = 1 then 0 else e.val; rw [if_neg (by decide)])
/-- The wrapped gather index of an edge: the entry, plus the node count when it is negative. -/
theorem wrapIdx_apply (v : IVec SE 32) (e : Fin 1600000) :
    wrapIdx φ v (ix2 e (0 : Fin 1))
      = Scalar.select (IntOp.cmpi .slt (v (ix1 e)) 0#32) (IntOp.addi (v (ix1 e)) 100000#32) (v (ix1 e)) := by
  unfold wrapIdx
  -- the [E] → [E, 1] broadcast reads the operand at the row coordinate; the wrap is pointwise
  refine (broadcastInDim_apply _ φ.bE_E1 _ (ix2 e (0 : Fin 1)) (ix1 e) (fun a => match a with
    | ⟨0, _⟩ => by show e.val = if (1600000 : Nat) = 1 then 0 else e.val; rw [if_neg (by decide)])).trans ?_
  rfl

/-- The gather-and-sum of rows, read whole: the host's accumulating scatter of the gathered rows from zero. -/
theorem scat_eq (hp : FVec Ideal SNH .f32) (src dst : IVec SE 32) :
    scat φ hp src dst
      = Ideal.hostScatterAdd (scRow φ.wfRow) (fun _ => (0 : EReal)) (rawIdx φ dst)
          (fun j => hp ((gRow φ.wfGRow).operandIdx j (wrapIdx φ src))) := by
  unfold scat
  -- the host's accumulating scatter at the ideal values; the gather reads the operand at its operand index
  show Ideal.hostScatterAdd (scRow φ.wfRow) _ (rawIdx φ dst) _ = _
  congr 1
  -- the operand is the zero constant
  funext i
  exact (bconst_NH φ _ i).trans Ideal.ofBits_zero_f32

/-- A per-edge array broadcast along the features, [E] → [E, 1] → [E, 64], reads the edge's entry. -/
private theorem bcastE_apply (g : FVec Ideal SE .f32) (j : SEH.Idx) :
    broadcastInDim SEH ![0, 1] φ.bE1_EH (broadcastInDim SE1 ![0] φ.bE_E1 g) j = g (edgeOf j) := by
  refine (broadcastInDim_apply _ φ.bE1_EH _ j (ix2 (row j) (0 : Fin 1)) (fun a => match a with
    | ⟨0, _⟩ => by show (j 0).val = if (1600000 : Nat) = 1 then 0 else (j 0).val; rw [if_neg (by decide)]
    | ⟨1, _⟩ => by show 0 = if (1 : Nat) = 1 then 0 else (j 1).val; rw [if_pos rfl])).trans ?_
  exact broadcastInDim_apply _ φ.bE_E1 g (ix2 (row j) (0 : Fin 1)) (edgeOf j) (fun a => match a with
    | ⟨0, _⟩ => by show (j 0).val = if (1600000 : Nat) = 1 then 0 else (j 0).val; rw [if_neg (by decide)])
/-- A per-node array broadcast along the features, [N] → [N, 1] → [N, 64], reads the node's entry. -/
private theorem bcastN_apply (g : FVec Ideal SN .f32) (i : SNH.Idx) :
    broadcastInDim SNH ![0, 1] φ.bN1_NH (broadcastInDim SN1 ![0] φ.bN_N1 g) i = g (ix1 (row i)) := by
  refine (broadcastInDim_apply _ φ.bN1_NH _ i (ix2 (row i) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ φ.bN_N1 g (ix2 (row i) (0 : Fin 1)) (ix1 (row i)) (fun a => match a with
    | ⟨0, _⟩ => by show (i 0).val = if (100000 : Nat) = 1 then 0 else (i 0).val; rw [if_neg (by decide)])
/-- A per-feature array broadcast along the nodes, [64] → [1, 64] → [N, 64], reads the feature's entry. -/
private theorem bcastH_apply (b : FVec Ideal SH .f32) (i : SNH.Idx) :
    broadcastInDim SNH ![0, 1] φ.b1H_NH (broadcastInDim S1H ![1] φ.bH_1H b) i = b (ix1 (col i)) := by
  refine (broadcastInDim_apply _ φ.b1H_NH _ i (ix2 (0 : Fin 1) (col i)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ φ.bH_1H b (ix2 (0 : Fin 1) (col i)) (ix1 (col i)) (fun a => match a with
    | ⟨0, _⟩ => by show (i 1).val = if (64 : Nat) = 1 then 0 else (i 1).val; rw [if_neg (by decide)])

/-- The host's accumulating scatter at the ideal values, with its operand and its updates replaced by equal ones. -/
private theorem scatterAdd_eq (z : FVec Ideal SNH .f32) (idx : IVec SE1 32) (u : FVec Ideal SEH .f32)
    (z' : SNH.Idx → EReal) (u' : SEH.Idx → EReal) (hz : z = z') (hu : u = u') :
    Host.scatterAdd (scRow φ.wfRow) z idx u = Ideal.hostScatterAdd (scRow φ.wfRow) z' idx u' := by
  subst hz hu
  rfl
/-- The per-edge message: the gathered row entry times the product of the two gathered factors of its edge. -/
private theorem msg_apply (h : FVec Ideal SNH .f32) (dinv : FVec Ideal SN .f32) (src dst : IVec SE 32) (j : SEH.Idx) :
    mulf (Host.gather (gRow φ.wfGRow) h (wrapIdx φ src))
        (broadcastInDim SEH ![0, 1] φ.bE1_EH (broadcastInDim SE1 ![0] φ.bE_E1
          (mulf (Host.gather (gVec φ.wfGVec) dinv (wrapIdx φ src)) (Host.gather (gVec φ.wfGVec) dinv (wrapIdx φ dst))))) j
      = h ((gRow φ.wfGRow).operandIdx j (wrapIdx φ src))
          * (dinv ((gVec φ.wfGVec).operandIdx (edgeOf j) (wrapIdx φ src))
              * dinv ((gVec φ.wfGVec).operandIdx (edgeOf j) (wrapIdx φ dst))) := by
  rw [mulf_apply, bcastE_apply φ, mulf_apply]
  rfl

/-- The reference's convolution layer at an index. -/
theorem refConv_apply (h : FVec Ideal SNH .f32) (dinv : FVec Ideal SN .f32) (src dst : IVec SE 32) (b : FVec Ideal SH .f32)
    (i : SNH.Idx) :
    refConv φ h dinv src dst b i
      = (Ideal.hostScatterAdd (scRow φ.wfRow) (fun _ => (0 : EReal)) (rawIdx φ dst)
            (fun j => h ((gRow φ.wfGRow).operandIdx j (wrapIdx φ src))
              * (dinv ((gVec φ.wfGVec).operandIdx (edgeOf j) (wrapIdx φ src))
                  * dinv ((gVec φ.wfGVec).operandIdx (edgeOf j) (wrapIdx φ dst)))) i
          + h i * (dinv (ix1 (row i)) * dinv (ix1 (row i))))
        + b (ix1 (col i)) := by
  unfold refConv
  -- the two sums and the self-loop product read at the index; the per-node and per-feature broadcasts read their entries
  rw [addf_apply, addf_apply, mulf_apply, bcastN_apply φ, bcastH_apply φ, mulf_apply]
  -- what is left is the scatter term: its operand is the zero constant, its updates the per-edge messages
  refine congrArg (· + b (ix1 (col i))) (congrArg (· + h i * (dinv (ix1 (row i)) * dinv (ix1 (row i)))) ?_)
  exact congrFun (scatterAdd_eq φ _ _ _ _ _ (funext fun i' => (bconst_NH φ _ i').trans Ideal.ofBits_zero_f32)
    (funext fun j => msg_apply φ h dinv src dst j)) i

/-- The factor column holds the node's factor. -/
theorem dcOf_apply (dinv : FVec Ideal SN .f32) (n : Fin 100000) : dcOf φ dinv (ix2 n (0 : Fin 1)) = dinv (ix1 n) := by
  unfold dcOf
  -- [N] → [N, 1]: the row-major position of (n, 0) is n
  exact shapeCast_apply dinv φ.castN_N1 (ix2 n (0 : Fin 1)) (ix1 n)
    (by rewrite [Shape.rowMajor_val_two, Shape.rowMajor_val_one]; show n.val = n.val * 1 + 0; omega)
/-- The bias row holds the bias. -/
theorem browOf_apply (b : FVec Ideal SH .f32) (f : Fin 64) : browOf φ b (ix2 (0 : Fin 1) f) = b (ix1 f) := by
  unfold browOf
  -- [64] → [1, 64]: the row-major position of (0, f) is f
  exact shapeCast_apply b φ.castH_1H (ix2 (0 : Fin 1) f) (ix1 f)
    (by rewrite [Shape.rowMajor_val_two, Shape.rowMajor_val_one]; show f.val = 0 * 64 + f.val; omega)
/-- The reference's rectifier is the maximum with zero. -/
theorem reluH_eq (a : FVec Ideal SNH .f32) : reluH φ a = relu a := by
  funext i
  unfold reluH relu
  -- the maximum with the broadcast zero constant
  rw [maximumf_apply, bconst_NH φ, Ideal.ofBits_zero_f32]
/-- The left operand's row coordinate is the output's row. -/
private theorem dotX_lhs0 (i : SNH.Idx) (q : (dotX φ.wfDotX).contr.Idx) :
    ((dotX φ.wfDotX).lhsIdx i q 0).val = (i 0).val := by
  unfold DotDims.lhsIdx
  rw [dif_neg (show ¬(0 : Fin SNX.rank) ∈ (dotX φ.wfDotX).lhsBatch from List.not_mem_nil),
    dif_pos (show (0 : Fin SNX.rank) ∈ (dotX φ.wfDotX).lhsNonContracting from List.mem_singleton.mpr rfl)]
  rfl
/-- The right operand's column coordinate is the output's column. -/
private theorem dotX_rhs1 (i : SNH.Idx) (q : (dotX φ.wfDotX).contr.Idx) :
    ((dotX φ.wfDotX).rhsIdx i q 1).val = (i 1).val := by
  unfold DotDims.rhsIdx
  rw [dif_neg (show ¬(1 : Fin SXH.rank) ∈ (dotX φ.wfDotX).rhsBatch from List.not_mem_nil),
    dif_pos (show (1 : Fin SXH.rank) ∈ (dotX φ.wfDotX).rhsNonContracting from List.mem_singleton.mpr rfl)]
  rfl
/-- The first projection's host matrix product is the textbook sum. -/
theorem dotX_eq (x : FVec Ideal SNX .f32) (w : FVec Ideal SXH .f32) :
    Host.dotGeneral (dotX φ.wfDotX) none x w = mm (K := 128) x w := by
  funext i
  unfold mm
  simp only [Host.dotGeneral]
  -- at the ideal values the host's product is the sum over the contraction index, which is its one coordinate
  rw [Ideal.dotGeneral_apply, ← Equiv.sum_comp (contrEquiv1 (dotX φ.wfDotX) 128 rfl rfl).symm]
  refine Finset.sum_congr rfl fun k _ => ?_
  have hk := contrEquiv1_symm_val (dotX φ.wfDotX) 128 rfl rfl k
  -- the left operand is read at (row, k)
  have el : (dotX φ.wfDotX).lhsIdx i ((contrEquiv1 (dotX φ.wfDotX) 128 rfl rfl).symm k) = ix2 (row i) k :=
    funext fun a => Fin.ext (by
      match a with
      | ⟨0, _⟩ => exact dotX_lhs0 φ _ _
      | ⟨1, _⟩ => exact ((dotX φ.wfDotX).lhsIdx_val_of_single rfl i _).trans hk)
  -- the right operand is read at (k, column)
  have er : (dotX φ.wfDotX).rhsIdx i ((contrEquiv1 (dotX φ.wfDotX) 128 rfl rfl).symm k) = ix2 k (col i) :=
    funext fun a => Fin.ext (by
      match a with
      | ⟨0, _⟩ => exact ((dotX φ.wfDotX).rhsIdx_val_of_single rfl i _).trans hk
      | ⟨1, _⟩ => exact dotX_rhs1 φ _ _)
  rw [el, er]
/-- The left operand's row coordinate is the output's row. -/
private theorem dotH_lhs0 (i : SNH.Idx) (q : (dotH φ.wfDotH).contr.Idx) :
    ((dotH φ.wfDotH).lhsIdx i q 0).val = (i 0).val := by
  unfold DotDims.lhsIdx
  rw [dif_neg (show ¬(0 : Fin SNH.rank) ∈ (dotH φ.wfDotH).lhsBatch from List.not_mem_nil),
    dif_pos (show (0 : Fin SNH.rank) ∈ (dotH φ.wfDotH).lhsNonContracting from List.mem_singleton.mpr rfl)]
  rfl
/-- The right operand's column coordinate is the output's column. -/
private theorem dotH_rhs1 (i : SNH.Idx) (q : (dotH φ.wfDotH).contr.Idx) :
    ((dotH φ.wfDotH).rhsIdx i q 1).val = (i 1).val := by
  unfold DotDims.rhsIdx
  rw [dif_neg (show ¬(1 : Fin SHH.rank) ∈ (dotH φ.wfDotH).rhsBatch from List.not_mem_nil),
    dif_pos (show (1 : Fin SHH.rank) ∈ (dotH φ.wfDotH).rhsNonContracting from List.mem_singleton.mpr rfl)]
  rfl
/-- A hidden projection's host matrix product is the textbook sum. -/
theorem dotH_eq (a : FVec Ideal SNH .f32) (w : FVec Ideal SHH .f32) :
    Host.dotGeneral (dotH φ.wfDotH) none a w = mm (K := 64) a w := by
  funext i
  unfold mm
  simp only [Host.dotGeneral]
  -- at the ideal values the host's product is the sum over the contraction index, which is its one coordinate
  rw [Ideal.dotGeneral_apply, ← Equiv.sum_comp (contrEquiv1 (dotH φ.wfDotH) 64 rfl rfl).symm]
  refine Finset.sum_congr rfl fun k _ => ?_
  have hk := contrEquiv1_symm_val (dotH φ.wfDotH) 64 rfl rfl k
  -- the left operand is read at (row, k)
  have el : (dotH φ.wfDotH).lhsIdx i ((contrEquiv1 (dotH φ.wfDotH) 64 rfl rfl).symm k) = ix2 (row i) k :=
    funext fun a => Fin.ext (by
      match a with
      | ⟨0, _⟩ => exact dotH_lhs0 φ _ _
      | ⟨1, _⟩ => exact ((dotH φ.wfDotH).lhsIdx_val_of_single rfl i _).trans hk)
  -- the right operand is read at (k, column)
  have er : (dotH φ.wfDotH).rhsIdx i ((contrEquiv1 (dotH φ.wfDotH) 64 rfl rfl).symm k) = ix2 k (col i) :=
    funext fun a => Fin.ext (by
      match a with
      | ⟨0, _⟩ => exact ((dotH φ.wfDotH).rhsIdx_val_of_single rfl i _).trans hk
      | ⟨1, _⟩ => exact dotH_rhs1 φ _ _)
  rw [el, er]

end Cert.Gcn

end
-- ==== Proof.Algebra.lean ====
import Idealize.ShloMosaic.PureOps.Ideal
import Idealize.ShloMosaic.PureOps.Ideal.Laws

/-!
Extended reals that are real numbers, and the one algebraic law of the graph convolution: the normalisation
`dinv[src] * dinv[dst]` of an edge's message may be applied per edge before the sum over a node's incoming edges,
or split into a per-source factor before the sum and the destination's factor after it, because the destination's
factor is constant over those edges. Over the extended reals the rearrangement needs every term to be a real number.
-/

noncomputable section

open Idealize.ShloMosaic

namespace Cert.Gcn

/-- An extended real that is a real number (neither infinity). -/
def IsReal (x : EReal) : Prop := ∃ r : ℝ, x = (r : EReal)

theorem IsReal.zero : IsReal 0 := ⟨0, EReal.coe_zero.symm⟩
theorem IsReal.one : IsReal 1 := ⟨1, EReal.coe_one.symm⟩
theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.max {x y : EReal} (hx : IsReal x) (hy : IsReal y) : IsReal (max x y) := by
  obtain ⟨r, rfl⟩ := hx
  obtain ⟨s, rfl⟩ := hy
  rcases le_total r s with h | h
  · exact ⟨s, max_eq_right (EReal.coe_le_coe_iff.2 h)⟩
  · exact ⟨r, max_eq_left (EReal.coe_le_coe_iff.2 h)⟩
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact IsReal.add (h a (Finset.mem_insert_self a s)) (ih (fun i hi => h i (Finset.mem_insert_of_mem hi)))

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float word of `1.0` denotes the real one. -/
theorem ofBits_one_f32 : Ideal.ofBits .f32 0x3F800000#32 = 1 := by
  simp [Ideal.ofBits, Ideal.ieee]
  have h : ((8388608 : ℝ) * ((2 : ℝ) ^ 23)⁻¹) = 1 := by norm_num
  rw [← EReal.coe_mul, h, EReal.coe_one]

/-- An extended real that is a real number at least one. -/
def IsRealGeOne (x : EReal) : Prop := ∃ r : ℝ, 1 ≤ r ∧ x = (r : EReal)

/-- A count of ones plus one is a real number at least one. -/
theorem isRealGeOne_count {ι : Type} (s : Finset ι) : IsRealGeOne (((0 : EReal) + ∑ _j ∈ s, (1 : EReal)) + 1) := by
  refine ⟨(s.card : ℝ) + 1, ?_, ?_⟩
  · have h0 : (0 : ℝ) ≤ (s.card : ℝ) := Nat.cast_nonneg _
    linarith
  · have h : (∑ _j ∈ s, (1 : EReal)) = ((s.card : ℝ) : EReal) := by
      rw [show (1 : EReal) = ((1 : ℝ) : EReal) from EReal.coe_one.symm, ← coe_sum]
      simp
    rw [h, zero_add, ← EReal.coe_one, ← EReal.coe_add]

/-- The reciprocal square root of a real number at least one is a real number. -/
theorem IsReal.rsqrt {x : EReal} (hx : IsRealGeOne x) : IsReal (Ideal.rsqrt x) := by
  obtain ⟨r, hr, rfl⟩ := hx
  refine ⟨(Real.sqrt r)⁻¹, ?_⟩
  rw [Ideal.rsqrt_coe, if_neg (by linarith), if_neg (by linarith)]

/-- THE LAW. `A` the incoming edges of a node, `hS j` the source's feature, `dS j` the source's factor, `dD j` the
    destination's factor (constant `di` over `A`), `hi` the node's own feature: scaling the messages by the source factor,
    adding the self-loop term and scaling the sum by `di` is scaling each message by both factors and the self-loop
    term by `di * di`. -/
theorem layer_law {ι : Type} (A : Finset ι) (hS dS dD : ι → EReal) (hi di b : EReal)
    (hhS : ∀ j ∈ A, IsReal (hS j)) (hdS : ∀ j ∈ A, IsReal (dS j)) (hhi : IsReal hi) (hdi : IsReal di)
    (hD : ∀ j ∈ A, dD j = di) :
    (((0 : EReal) + ∑ j ∈ A, hS j * dS j) + hi * di) * di + b
      = (((0 : EReal) + ∑ j ∈ A, hS j * (dS j * dD j)) + hi * (di * di)) + b := by
  classical
  obtain ⟨hi', rfl⟩ := hhi
  obtain ⟨di', rfl⟩ := hdi
  unfold IsReal at hhS hdS
  choose! f hf using hhS
  choose! g hg using hdS
  -- both sums are coercions of sums of real numbers
  have e1 : ∑ j ∈ A, hS j * dS j = ((∑ j ∈ A, f j * g j : ℝ) : EReal) := by
    rw [coe_sum]
    exact Finset.sum_congr rfl (fun j hj => by rw [hf j hj, hg j hj, EReal.coe_mul])
  have e2 : ∑ j ∈ A, hS j * (dS j * dD j) = ((∑ j ∈ A, f j * (g j * di') : ℝ) : EReal) := by
    rw [coe_sum]
    exact Finset.sum_congr rfl
      (fun j hj => by rw [hf j hj, hg j hj, hD j hj, EReal.coe_mul, EReal.coe_mul])
  rw [e1, e2]
  congr 1
  simp only [zero_add, ← EReal.coe_mul, ← EReal.coe_add]
  congr 1
  -- the identity among real numbers: distribute the destination's factor over the sum
  rw [add_mul, Finset.sum_mul]
  congr 1
  · exact Finset.sum_congr rfl (fun j _ => by ring)
  · ring

end Cert.Gcn

end
-- ==== Proof.OpsIdx.lean ====
import proofs.«172860_j34376918237434_2_alg».proof.Proof.OpsRead
import proofs.«172860_j34376918237434_2_alg».proof.Proof.Algebra

/-!
Which node rows the edge gathers read, and that the quantities the layers are built from are real numbers: a row
gathered along an edge's source and the factor gathered along the same source sit at the same node; an update that
lands on node row `n` comes from an edge whose destination, wrapped and clamped as the gathers read it, is `n`; the
per-node factor is the reciprocal square root of a count plus one; sums of products of real numbers are real.
-/

noncomputable section

open Idealize.ShloMosaic Idealize.ShloMosaic.ValueIdx

namespace Cert.Gcn

variable (φ : ShapeFacts)

/-- The factor gathered along an edge's source sits at the node whose row the row gather reads along that edge. -/
theorem src_rows_agree (src : IVec SE 32) (j : SEH.Idx) :
    (gVec φ.wfGVec).operandIdx (edgeOf j) (wrapIdx φ src) = ix1 (row ((gRow φ.wfGRow).operandIdx j (wrapIdx φ src))) := by
  -- both gathers read at the wrapped source index of the edge, clamped into the node range
  have h1 := gRow_row φ.wfGRow (wrapIdx φ src) j
  have h2 := gVec_elt φ.wfGVec (wrapIdx φ src) (edgeOf j)
  funext a
  match a with
  | ⟨0, _⟩ =>
    refine Fin.ext ?_
    show (((gVec φ.wfGVec).operandIdx (edgeOf j) (wrapIdx φ src)) 0).val
      = (((gRow φ.wfGRow).operandIdx j (wrapIdx φ src)) 0).val
    rw [h1, h2]
    rfl

/-- An update landing on node row `row i` comes from an edge whose destination the factor gather reads at that node. -/
theorem dst_row_of_landing (dst : IVec SE 32) (j : SEH.Idx) (i : SNH.Idx)
    (h : (scRow φ.wfRow).resultIdx? j (rawIdx φ dst) = some i) :
    (gVec φ.wfGVec).operandIdx (edgeOf j) (wrapIdx φ dst) = ix1 (row i) := by
  -- the landing row is the edge's raw destination index, read signed
  have hs := scRow_row φ.wfRow (rawIdx φ dst) j i h
  have hr : rawIdx φ dst (ix2 (j 0) (0 : Fin 1)) = dst (ix1 (row j)) := rawIdx_apply φ dst (row j)
  rw [hr] at hs
  have hlt : (i 0).val < 100000 := idx2_lt0 i
  -- so that index is non-negative, and wrapping leaves it as it is
  have hnn : 0 ≤ (dst (ix1 (row j))).toInt := by rw [hs]; exact Int.natCast_nonneg _
  have hw : wrapIdx φ dst (ix2 (j 0) (0 : Fin 1)) = dst (ix1 (row j)) :=
    (wrapIdx_apply φ dst (row j)).trans (wrap_of_nonneg _ hnn)
  -- the factor gather reads at that index clamped into the node range, where it already lies
  have hg : (((gVec φ.wfGVec).operandIdx (edgeOf j) (wrapIdx φ dst)) 0).val
      = min (wrapIdx φ dst (ix2 (j 0) (0 : Fin 1))).toInt.toNat (100000 - 1) :=
    gVec_elt φ.wfGVec (wrapIdx φ dst) (edgeOf j)
  rw [hw, hs] at hg
  funext a
  match a with
  | ⟨0, _⟩ =>
    refine Fin.ext ?_
    show (((gVec φ.wfGVec).operandIdx (edgeOf j) (wrapIdx φ dst)) 0).val = (i 0).val
    rw [hg]
    omega

/-- The host's reciprocal square root at an index is that of the element. -/
private theorem hostRsqrt_apply {s : Shape} (v : FVec Ideal s .f32) (n : s.Idx) : Host.rsqrt v n = Ideal.rsqrt (v n) := rfl
/-- The host's accumulating scatter at an index: the operand element plus the sum of the updates landing there. -/
private theorem hostScatterAdd_apply {s si su : Shape} {w : Nat} (d : ScatterDims s si su) (x : FVec Ideal s .f32)
    (idx : IVec si w) (upd : FVec Ideal su .f32) (i : s.Idx) :
    Host.scatterAdd d x idx upd i = x i + ∑ j ∈ Finset.univ.filter (fun j => d.resultIdx? j idx = some i), upd j := rfl

/-- The per-node factor is a real number: the reciprocal square root of an edge count plus one. -/
theorem real_dinv (dst : IVec SE 32) (n : SN.Idx) : IsReal (dinvOf φ dst n) := by
  delta dinvOf
  -- at a node: the reciprocal square root of (zero plus a sum of ones over the edges landing there) plus one
  rw [hostRsqrt_apply, addf_apply, hostScatterAdd_apply, bconst_N φ, bconst_N φ, Ideal.ofBits_zero_f32, ofBits_one_f32,
    Finset.sum_congr rfl (fun j _ => (bconst_E φ _ j).trans ofBits_one_f32)]
  exact IsReal.rsqrt (isRealGeOne_count _)

/-- A matrix product of real matrices is real. -/
theorem real_mm {K : Nat} (x : (⟨2, ![100000, K]⟩ : Shape).Idx → EReal) (w : (⟨2, ![K, 64]⟩ : Shape).Idx → EReal)
    (hx : ∀ i, IsReal (x i)) (hw : ∀ i, IsReal (w i)) (i : SNH.Idx) : IsReal (mm x w i) := by
  unfold mm
  exact IsReal.sum _ _ (fun k _ => IsReal.mul (hx _) (hw _))

/-- The rectifier of a real matrix is real. -/
theorem real_relu (a : SNH.Idx → EReal) (ha : ∀ i, IsReal (a i)) (i : SNH.Idx) : IsReal (relu a i) := by
  unfold relu
  exact IsReal.max (ha i) IsReal.zero

/-- The accumulating scatter from zero of real updates is real. -/
theorem real_hostScatterAdd (idx : IVec SE1 32) (upd : SEH.Idx → EReal) (hu : ∀ j, IsReal (upd j)) (i : SNH.Idx) :
    IsReal (Ideal.hostScatterAdd (scRow φ.wfRow) (fun _ => (0 : EReal)) idx upd i) := by
  unfold Ideal.hostScatterAdd
  exact IsReal.add IsReal.zero (IsReal.sum _ _ (fun j _ => hu j))

end Cert.Gcn

end
-- ==== Proof.Bridge.lean ====
import proofs.«172860_j34376918237434_2_alg».proof.Proof.OpsRead
import proofs.«172860_j34376918237434_2_alg».proof.Proof.OpsIdx
import proofs.«172860_j34376918237434_2_alg».proof.Proof.Algebra

/-!
The bridge: on real inputs the kernel program's composition of scaled projections, gather-and-sums and combinations
is the reference's composition of convolution layers.
-/

noncomputable section

open Idealize.ShloMosaic Idealize.ShloMosaic.ValueIdx

namespace Cert.Gcn

variable (φ : ShapeFacts)

/-- A convolution layer of real features, real factors and a real bias is real. -/
theorem real_refConv (h : FVec Ideal SNH .f32) (dinv : FVec Ideal SN .f32) (src dst : IVec SE 32) (b : FVec Ideal SH .f32)
    (hh : ∀ i, IsReal (h i)) (hd : ∀ n, IsReal (dinv n)) (hb : ∀ f, IsReal (b f)) (i : SNH.Idx) :
    IsReal (refConv φ h dinv src dst b i) := by
  rw [refConv_apply]
  exact ((real_hostScatterAdd φ _ _ (fun j => (hh _).mul ((hd _).mul (hd _))) i).add ((hh i).mul ((hd _).mul (hd _)))).add (hb _)

/-- ONE LAYER. On real features `h` and real factors `dinv`: scaling the rows by `dinv`, summing the scaled rows of the
    edges' sources into the edges' destinations, adding the node's own scaled row, scaling by `dinv` again and adding the
    bias is the reference's layer, which scales each message by `dinv[src] * dinv[dst]` before the sum. The destination's
    factor is the same for every update landing on a node, so it leaves the sum; the rest is distributivity in the reals. -/
theorem layer_eq (h : FVec Ideal SNH .f32) (dinv : FVec Ideal SN .f32) (src dst : IVec SE 32) (b : FVec Ideal SH .f32)
    (hh : ∀ i, IsReal (h i)) (hd : ∀ n, IsReal (dinv n)) :
    combine (scat φ (scaleRows h (dcOf φ dinv)) src dst) (scaleRows h (dcOf φ dinv)) (dcOf φ dinv) (browOf φ b)
      = refConv φ h dinv src dst b := by
  funext i
  rw [refConv_apply, scat_eq]
  unfold combine
  show ((Ideal.hostScatterAdd (scRow φ.wfRow) (fun _ => (0 : EReal)) (rawIdx φ dst)
        (fun j => scaleRows h (dcOf φ dinv) ((gRow φ.wfGRow).operandIdx j (wrapIdx φ src))) i
      + scaleRows h (dcOf φ dinv) i) * dcOf φ dinv (ix2 (row i) (0 : Fin 1)) + browOf φ b (ix2 (0 : Fin 1) (col i))) = _
  unfold Ideal.hostScatterAdd scaleRows
  simp only [dcOf_apply, browOf_apply]
  have hsum : ∀ j ∈ Finset.univ.filter (fun j => (scRow φ.wfRow).resultIdx? j (rawIdx φ dst) = some i),
      h ((gRow φ.wfGRow).operandIdx j (wrapIdx φ src))
          * (dinv ((gVec φ.wfGVec).operandIdx (edgeOf j) (wrapIdx φ src)) * dinv ((gVec φ.wfGVec).operandIdx (edgeOf j) (wrapIdx φ dst)))
        = h ((gRow φ.wfGRow).operandIdx j (wrapIdx φ src))
          * (dinv (ix1 (row ((gRow φ.wfGRow).operandIdx j (wrapIdx φ src)))) * dinv ((gVec φ.wfGVec).operandIdx (edgeOf j) (wrapIdx φ dst))) := by
    intro j _; rw [src_rows_agree]
  rw [Finset.sum_congr rfl hsum]
  exact layer_law _ (fun j => h ((gRow φ.wfGRow).operandIdx j (wrapIdx φ src)))
    (fun j => dinv (ix1 (row ((gRow φ.wfGRow).operandIdx j (wrapIdx φ src)))))
    (fun j => dinv ((gVec φ.wfGVec).operandIdx (edgeOf j) (wrapIdx φ dst))) (h i) (dinv (ix1 (row i))) (b (ix1 (col i)))
    (fun j _ => hh _) (fun j _ => hd _) (hh i) (hd _)
    (fun j hj => by rw [dst_row_of_landing φ dst j i (Finset.mem_filter.mp hj).2])

/-- THE TWO PROGRAMS COMPUTE ONE FUNCTION of real node features, weights and biases (any edge list, any graph
    assignment, any final weights): layer by layer the kernel's scaled-and-fused form is the reference's, and the
    pooling tail is shared. -/
theorem bridge (x : FVec Ideal SNX .f32) (e : IVec S2E 32) (batch : IVec SN 32) (w1 : FVec Ideal SXH .f32) (b1 : FVec Ideal SH .f32)
    (w2 : FVec Ideal SHH .f32) (b2 : FVec Ideal SH .f32) (w3 : FVec Ideal SHH .f32) (b3 : FVec Ideal SH .f32)
    (lw : FVec Ideal SHC .f32) (lb : FVec Ideal SC .f32)
    (hx : ∀ i, IsReal (x i)) (hw1 : ∀ i, IsReal (w1 i)) (hb1 : ∀ i, IsReal (b1 i)) (hw2 : ∀ i, IsReal (w2 i))
    (hb2 : ∀ i, IsReal (b2 i)) (hw3 : ∀ i, IsReal (w3 i)) :
    kerValue φ x e batch w1 b1 w2 b2 w3 b3 lw lb = refValue φ x e batch w1 b1 w2 b2 w3 b3 lw lb := by
  have hd := real_dinv φ (dstOf φ e)
  have h1 := real_mm x w1 hx hw1
  have c1 := real_refConv φ (mm x w1) (dinvOf φ (dstOf φ e)) (srcOf φ e) (dstOf φ e) b1 h1 hd hb1
  have h2 := real_mm (relu (refConv φ (mm x w1) (dinvOf φ (dstOf φ e)) (srcOf φ e) (dstOf φ e) b1)) w2 (real_relu _ c1) hw2
  have c2 := real_refConv φ _ (dinvOf φ (dstOf φ e)) (srcOf φ e) (dstOf φ e) b2 h2 hd hb2
  have h3 := real_mm (relu (refConv φ (mm (relu (refConv φ (mm x w1) (dinvOf φ (dstOf φ e)) (srcOf φ e) (dstOf φ e) b1)) w2)
    (dinvOf φ (dstOf φ e)) (srcOf φ e) (dstOf φ e) b2)) w3 (real_relu _ c2) hw3
  unfold kerValue refValue
  dsimp only
  unfold fused
  rw [dotX_eq φ, reluH_eq φ, dotH_eq φ, reluH_eq φ, dotH_eq φ]
  simp only [mmScale_eq]
  rw [layer_eq φ _ _ _ _ b1 h1 hd, layer_eq φ _ _ _ _ b2 h2 hd, layer_eq φ _ _ _ _ b3 h3 hd]

end Cert.Gcn

end
-- ==== Proof.Finite.lean ====
import proofs.«172860_j34376918237434_2_alg».proof.Pre_finite_inputs
import proofs.«172860_j34376918237434_2_alg».proof.Proof.Gen.Pre_finite_inputs
import proofs.«172860_j34376918237434_2_alg».proof.Proof.Algebra
import Idealize.ShloMosaic.Lib.ReduceAll
import Idealize.ShloMosaic.Lib.ValueIdx

/-!
The precondition read: when `finite_inputs` evaluates to true, every element of the node features, of the three
weight matrices and of the three biases is a real number (`|x| < +inf` as extended reals excludes both infinities).
-/

noncomputable section

open Idealize.ShloMosaic Idealize.ShloMosaic.ValueIdx

namespace Cert.Gcn

/-- The scalar shape has one index. -/
private instance : Subsingleton Cert.Pre_finite_inputs.S_.Idx := ⟨fun a b => funext fun d => d.elim0⟩

/-- The float word `0x7F800000` denotes `+∞`. -/
private theorem ofBits_inf_f32 : Ideal.ofBits .f32 0x7F800000#32 = ⊤ := by simp [Ideal.ofBits, Ideal.ieee]

/-- An extended real whose absolute value `max x (-x)` is strictly below `+∞` is a real number: at either infinity the
    absolute value is `+∞`. -/
private theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

open Cert.Pre_finite_inputs in
/-- One test `all(|x| < +inf)` that came out true: every element of `x` is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : IsReal (x i) := by
  have h1 := Host.reduce_andi_all _ _ hr hu ix0 e i
  apply isReal_of_abs_lt_top
  rw [← ofBits_inf_f32]
  exact h1

open Cert.Pre_finite_inputs in
/-- Under the precondition the float inputs the convolution layers read hold real numbers only. -/
theorem real_of_pre (x0 : FVec Ideal S100000x128 .f32) (x1 : IVec S2x1600000 32) (x2 : IVec S100000 32)
    (x3 : FVec Ideal S128x64 .f32) (x4 : FVec Ideal S64 .f32) (x5 : FVec Ideal S64x64 .f32) (x6 : FVec Ideal S64 .f32)
    (x7 : FVec Ideal S64x64 .f32) (x8 : FVec Ideal S64 .f32) (x9 : FVec Ideal S64x16 .f32) (x10 : FVec Ideal S16 .f32)
    (h : Cert.Pre_finite_inputs.fn (F := Ideal) x0 x1 x2 x3 x4 x5 x6 x7 x8 x9 x10 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) := by
  have h0 := congrFun h ix0
  dsimp only [fn, fn_part1, fn_part2, Idealize.ShloMosaic.andi] at h0
  simp only [IntOp.andi_eq_one] at h0
  obtain ⟨⟨⟨⟨⟨⟨⟨⟨e0, e3⟩, e4⟩, e5⟩, e6⟩, e7⟩, e8⟩, _⟩, _⟩ := h0
  exact ⟨real_of_all x0 _ _ _ e0, real_of_all x3 _ _ _ e3, real_of_all x4 _ _ _ e4, real_of_all x5 _ _ _ e5,
    real_of_all x6 _ _ _ e6, real_of_all x7 _ _ _ e7, real_of_all x8 _ _ _ e8⟩

end Cert.Gcn

end
-- ==== Proof.lean ====
/- The certificate of a three-layer graph convolution network (GCNConv with self-loops and symmetric normalisation,
   mean pooling per graph, a final linear layer) against its jnp reference, over the extended reals.
   The kernel program folds the per-edge normalisation `dinv[src] * dinv[dst]` into a per-node scaling by `dinv` before the
   gather-and-sum along the edges and once more after it; the reference scales each message per edge. The two agree
   because `dinv[dst]` is the same for every edge summed into a node, and the rearrangement is distributivity — valid on
   real numbers, which the precondition (finite inputs) provides for the features, weights and biases, and which the factor
   `dinv = rsqrt(in-degree + 1)` always is. Edge endpoints and graph assignments may be any integers: both programs wrap,
   clamp and drop them alike.
   The three frames: the two kernel programs' are the generated frame certificates; the reference's is its generated run.
   `preserves` has no conjunct (no operation was rewritten for the ideal reading). `algebraic`: the kernel program's run
   with its result named (KRun), that result as the composition of the regions' whole-array functions and the host
   operations (KRegion0–3, KHost), the reference's result grouped by layer (RefValue), and the bridge (Bridge) on the
   real inputs (Finite). -/
import proofs.«172860_j34376918237434_2_alg».proof.Defs
import proofs.«172860_j34376918237434_2_alg».proof.Proof.Gen.Kernel
import proofs.«172860_j34376918237434_2_alg».proof.Proof.Gen.Kernel.Skeleton
import proofs.«172860_j34376918237434_2_alg».proof.Proof.Gen.Kernel.Launch
import proofs.«172860_j34376918237434_2_alg».proof.Proof.Gen.Kernel.Points
import proofs.«172860_j34376918237434_2_alg».proof.Proof.Gen.Kernel.Frame
import proofs.«172860_j34376918237434_2_alg».proof.Proof.Gen.KernelIdeal
import proofs.«172860_j34376918237434_2_alg».proof.Proof.Gen.KernelIdeal.Skeleton
import proofs.«172860_j34376918237434_2_alg».proof.Proof.Gen.KernelIdeal.Launch
import proofs.«172860_j34376918237434_2_alg».proof.Proof.Gen.KernelIdeal.Points
import proofs.«172860_j34376918237434_2_alg».proof.Proof.Gen.KernelIdeal.Frame
import proofs.«172860_j34376918237434_2_alg».proof.Proof.Gen.ReferenceIdeal
import proofs.«172860_j34376918237434_2_alg».proof.Proof.Gen.Pre_finite_inputs
import proofs.«172860_j34376918237434_2_alg».proof.Proof.Gen.ReferenceIdeal.Run
import proofs.«172860_j34376918237434_2_alg».proof.Proof.Gen.ReferenceIdeal.Read
import proofs.«172860_j34376918237434_2_alg».proof.Proof.KRun
import proofs.«172860_j34376918237434_2_alg».proof.Proof.KHost
import proofs.«172860_j34376918237434_2_alg».proof.Proof.RefValue
import proofs.«172860_j34376918237434_2_alg».proof.Proof.Bridge
import proofs.«172860_j34376918237434_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both idealized programs run and end with one
    result: the kernel program's named result, which the bridge identifies with the reference's. -/
theorem algebraic : Cert.algebraic_KernelIdeal_ReferenceIdeal := by
  intro m ρ m' ρ' hpre hagree
  refine ⟨fun c => Cert.KernelIdeal.Gen.W9 m ρ c (Proc.devRef .tc Cert.KernelIdeal.main_v0),
    Cert.KernelIdeal.KVal.run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v139 m' c = Cert.KernelIdeal.Gen.W9 m ρ c (Proc.devRef .tc Cert.KernelIdeal.main_v0)
  obtain ⟨a0, a1, a2, a3, a4, a5, a6, a7, a8, a9, a10⟩ := hagree c
  obtain ⟨r0, r3, r4, r5, r6, r7, r8⟩ := Cert.Gcn.real_of_pre _ _ _ _ _ _ _ _ _ _ _ (hpre c)
  rw [Cert.ReferenceIdeal.RefValue.ref_value, Cert.KernelIdeal.KVal.kernel_value, a0, a1, a2, a3, a4, a5, a6, a7, a8, a9, a10]
  exact (Cert.Gcn.bridge Cert.Gcn.shapeFacts _ _ _ _ _ _ _ _ _ _ _ r0 r3 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
